-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg6
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x64 .f32) (main_arg4 : FVec F S64 .f32) (main_arg5 : FVec F S64x2 .f32) (main_arg6 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg5
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩
abbrev S50000x2 : Shape := ⟨2, ![50000, 2]⟩
abbrev S5000x2 : Shape := ⟨2, ![5000, 2]⟩
abbrev S800000x2 : Shape := ⟨2, ![800000, 2]⟩
abbrev S1x2 : Shape := ⟨2, ![1, 2]⟩
abbrev S5000 : Shape := ⟨1, ![5000]⟩

abbrev nBuf : Space → Nat
  | .hbm => 63
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x1, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x1, .f32⟩
  | .hbm, ⟨46, _⟩ => ⟨S50000x1, .f32⟩
  | .hbm, ⟨47, _⟩ => ⟨S50000x2, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x2, .f32⟩
  | .hbm, ⟨57, _⟩ => ⟨S_, .f32⟩
  | .hbm, ⟨58, _⟩ => ⟨S50000x2, .f32⟩
  | .hbm, ⟨59, _⟩ => ⟨S800000x1, .i32⟩
  | .hbm, ⟨60, _⟩ => ⟨S50000x2, .f32⟩
  | .hbm, ⟨61, _⟩ => ⟨S1x2, .f32⟩
  | .hbm, ⟨62, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x2, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S_S50000x2 : S_.BroadcastsInDim S50000x2 (![] : Fin 0 → Fin S50000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x2_S5000x2_1_0_0_1_n_n_wf : DotDims.WF S5000x64 S64x2 S5000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S50000x2.size a
  hwx2_3 : ∀ i : grid2.Coords, EltTy.bits .f32 = 32 ∨ (Rect.block (s := S50000x2) S5000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S50000x2.size a
  hwx3_0 : ∀ i : grid3.Coords, EltTy.bits .f32 = 32 ∨ (Rect.block (s := S50000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S50000x2.size a
  hwx3_3 : ∀ i : grid3.Coords, EltTy.bits .f32 = 32 ∨ (Rect.block (s := S50000x2) S5000x2.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S50000x2 : Shape := ⟨2, ![50000, 2]⟩
abbrev S800000x2 : Shape := ⟨2, ![800000, 2]⟩
abbrev S1x2 : Shape := ⟨2, ![1, 2]⟩

abbrev nBuf : Space → Nat
  | .hbm => 111
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x64, .f32⟩
  | .hbm, ⟨4, _⟩ => ⟨S64, .f32⟩
  | .hbm, ⟨5, _⟩ => ⟨S64x2, .f32⟩
  | .hbm, ⟨6, _⟩ => ⟨S2, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x256, .f32⟩
  | .hbm, ⟨29, _⟩ => ⟨S50000x256, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S50000x2, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x2, .f32⟩
  | .hbm, ⟨86, _⟩ => ⟨S_, .f32⟩
  | .hbm, ⟨87, _⟩ => ⟨S50000x2, .f32⟩
  | .hbm, ⟨88, _⟩ => ⟨S800000x1, .i32⟩
  | .hbm, ⟨89, _⟩ => ⟨S50000x2, .f32⟩
  | .hbm, ⟨90, _⟩ => ⟨S50000x1, .f32⟩
  | .hbm, ⟨91, _⟩ => ⟨S50000x2, .f32⟩
  | .hbm, ⟨92, _⟩ => ⟨S50000x2, .f32⟩
  | .hbm, ⟨93, _⟩ => ⟨S1x2, .f32⟩
  | .hbm, ⟨94, _⟩ => ⟨S50000x2, .f32⟩
  | .hbm, ⟨95, _⟩ => ⟨S50000x2, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x2, .f32⟩
  | .hbm, ⟨103, _⟩ => ⟨S50000x2, .f32⟩
  | .hbm, ⟨104, _⟩ => ⟨S50000x2, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x1, .f32⟩
  | .hbm, ⟨109, _⟩ => ⟨S50000x2, .f32⟩
  | .hbm, ⟨110, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v69 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

class Facts : Prop extends Facts₀ where

variable [Facts]
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.Dense1Pay.lean ====
/-
  The first kernel's block payload read at an index. A block holds 5000 node rows; the body scales each feature
  row by its node's out-degree factor (a column of the block, broadcast over the 256 features), multiplies by the
  256 × 64 weight matrix into a zero accumulator, and stores the product. At the extended reals the changes of
  float format are the identity and the matrix product is the plain sum over the contracted axis, so entry
  `(p, q)` of the payload is `Σ k, (x p k · r p) · w k q`.
-/
import proofs.«154340_j13889924235582_1_alg».proof.Proof.Gen.KernelIdeal.Frame
import proofs.«154340_j13889924235582_1_alg».proof.Proof.LibColumn
import Idealize.ShloMosaic.Lib.Pipeline.Value
import Idealize.ShloMosaic.Lib.ValueIdx
import Idealize.ShloMosaic.PureOps.Ideal.Laws

noncomputable section

namespace Cert.KernelIdeal.Dense1

open Idealize.ShloMosaic Idealize.ShloMosaic.ValueIdx ColumnLayout
open Cert.KernelIdeal Cert.KernelIdeal.Gen

/-- The block product's dimension numbers: rows × (contracted 256) and (contracted 256) × columns. -/
abbrev D := dot_S5000x256_S256x64_S5000x64_1_0_0_1_n_n

theorem lhs_row (i : S5000x64.Idx) (q : D.contr.Idx) : (D.lhsIdx i q 0).val = (i 0).val := by
  unfold DotDims.lhsIdx
  rw [dif_neg (show ¬(0 : Fin S5000x256.rank) ∈ D.lhsBatch by decide), dif_pos (show (0 : Fin S5000x256.rank) ∈ D.lhsNonContracting by decide)]
  rfl

theorem rhs_col (i : S5000x64.Idx) (q : D.contr.Idx) : (D.rhsIdx i q 1).val = (i 1).val := by
  unfold DotDims.rhsIdx
  rw [dif_neg (show ¬(1 : Fin S256x64.rank) ∈ D.rhsBatch by decide), dif_pos (show (1 : Fin S256x64.rank) ∈ D.rhsNonContracting by decide)]
  rfl

/-- Entry `(p, q)` of the block's payload: the scaled row `p` of the features against column `q` of the weights. -/
theorem pay_apply (x0 : Vec Ideal S5000x256 .f32) (x1 : Vec Ideal S5000x1 .f32) (x2 : Vec Ideal S256x64 .f32)
    (p : Fin 5000) (q : Fin 64) :
    k0_pay1 x0 x1 x2 (ix2 p q) = ∑ k : Fin 256, (x0 (ix2 p k) * x1 (ix2 p (0 : Fin 1))) * x2 (ix2 k q) := by
  unfold k0_pay1
  refine (Ideal.matmul_constant_zero_apply D none _ _ (ix2 p q)).trans ?_
  rw [← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 256 rfl rfl).symm k) = ix2 k q := funext fun a => Fin.ext (by
    match a with
    | ⟨0, _⟩ => exact (D.rhsIdx_val_of_single rfl _ _).trans hk
    | ⟨1, _⟩ => exact rhs_col _ _)
  rw [el, er]
  show (x0 (ix2 p k) * broadcastTo S5000x256 (shapeCast S5000x1 x1 shapeCasts_S5000x1_S5000x1) broadcasts_S5000x1_S5000x256 (ix2 p k)) * x2 (ix2 k q) = _
  rw [broadcastTo_a1_ab_apply, shapeCast_self]

end Cert.KernelIdeal.Dense1

end
-- ==== Proof.Spec.lean ====
/-
  The function both programs compute, stated once over the extended reals, index by index.

  A two-layer graph convolution: every node's feature row is scaled by the node's out-degree factor and multiplied
  by a weight matrix (`scaleMatmul`); the rows are then gathered along the edges' sources and summed into the edges'
  destinations (an aggregation this file leaves abstract: both programs apply the same gather and the same
  accumulating scatter to it); the aggregate is scaled by the in-degree factor and shifted by a bias (`scaleBias`);
  the first layer ends in `relu`, the second in a row-wise log-softmax over its two classes.

  The log-softmax is written in the two groupings the programs use: `lsmOuter` subtracts from a logit the sum
  `m + log (Σ exp (y - m))`, `lsmInner` subtracts `m` first and the logarithm afterwards. They agree wherever the
  row maximum `m` is a real number, and differ at `m = ⊤` (Proof/Real.lean proves the former).
-/
import Idealize.ShloMosaic.PureOps.Ideal
import Idealize.ShloMosaic.Lib.ValueIdx

noncomputable section

namespace GcnSpec

open Idealize.ShloMosaic Idealize.ShloMosaic.ValueIdx

/-- A matrix shape and a vector shape, by their extents. -/
abbrev Mat (a b : Nat) : Shape := ⟨2, ![a, b]⟩
abbrev Vct (a : Nat) : Shape := ⟨1, ![a]⟩

variable {n k c : Nat}

/-- The row and the column of a matrix index, as numbers below the extents. -/
abbrev row (i : (Mat n c).Idx) : Fin n := ⟨(i 0).val, idx2_lt0 i⟩
abbrev col (i : (Mat n c).Idx) : Fin c := ⟨(i 1).val, idx2_lt1 i⟩

/-- Entry `(p, j)` of `(x scaled row by row by r) · w`: the sum over the contracted axis of
    `(x p q · r p) · w q j`. -/
def scaleMatmul (x : (Mat n k).Idx → EReal) (r : (Vct n).Idx → EReal) (w : (Mat k c).Idx → EReal) :
    (Mat n c).Idx → EReal :=
  fun i => ∑ q : Fin k, (x (ix2 (row i) q) * r (ix1 (row i))) * w (ix2 q (col i))

/-- Entry `(p, j)` of the aggregate scaled row by row and shifted column by column: `a p j · r p + b j`. -/
def scaleBias (a : (Mat n c).Idx → EReal) (r : (Vct n).Idx → EReal) (b : (Vct c).Idx → EReal) :
    (Mat n c).Idx → EReal :=
  fun i => a i * r (ix1 (row i)) + b (ix1 (col i))

/-- The positive part, entry by entry. -/
def relu (y : (Mat n c).Idx → EReal) : (Mat n c).Idx → EReal := fun i => max (y i) 0

/-- The larger of a row's two logits. -/
def rowMax (y : (Mat n 2).Idx → EReal) (p : Fin n) : EReal := max (y (ix2 p 0)) (y (ix2 p 1))

/-- The logarithm of the sum of the row's exponentials after the row maximum is taken off. -/
def logSumExp (y : (Mat n 2).Idx → EReal) (p : Fin n) : EReal :=
  Ideal.log (∑ j : Fin 2, Ideal.exp (y (ix2 p j) - rowMax y p))

/-- Log-softmax with the maximum and the logarithm added first and subtracted together. -/
def lsmOuter (y : (Mat n 2).Idx → EReal) : (Mat n 2).Idx → EReal :=
  fun i => y i - (rowMax y (row i) + logSumExp y (row i))

/-- Log-softmax with the maximum subtracted first and the logarithm afterwards. -/
def lsmInner (y : (Mat n 2).Idx → EReal) : (Mat n 2).Idx → EReal :=
  fun i => (y i - rowMax y (row i)) - logSumExp y (row i)

/-- The second layer's logits from the first layer's input: `agg₁`, `agg₂` are the two layers' edge aggregations
    (gather along sources, accumulate into destinations), `rs`, `rd` the out- and in-degree factors. -/
def logits (agg₁ : ((Mat n 64).Idx → EReal) → (Mat n 64).Idx → EReal)
    (agg₂ : ((Mat n 2).Idx → EReal) → (Mat n 2).Idx → EReal)
    (rs rd : (Vct n).Idx → EReal) (x : (Mat n 256).Idx → EReal) (w₁ : (Mat 256 64).Idx → EReal)
    (b₁ : (Vct 64).Idx → EReal) (w₂ : (Mat 64 2).Idx → EReal) (b₂ : (Vct 2).Idx → EReal) : (Mat n 2).Idx → EReal :=
  scaleBias (agg₂ (scaleMatmul (relu (scaleBias (agg₁ (scaleMatmul x rs w₁)) rd b₁)) rs w₂)) rd b₂

end GcnSpec

end
-- ==== Proof.Dense1.lean ====
/-
  The first kernel region's output array. The region walks ten blocks of 5000 node rows; at block `t` it reads
  rows `5000·t … 5000·t + 4999` of the features and of the out-degree column, the whole weight matrix, and writes
  the same rows of the output. Each block it writes back is the restriction to those rows of ONE function of the
  whole arrays — the degree-scaled features times the weights, `GcnSpec.scaleMatmul` — and the ten blocks tile
  the 50000 rows, so the output array ends holding that function.
-/
import proofs.«154340_j13889924235582_1_alg».proof.Proof.Dense1Pay
import proofs.«154340_j13889924235582_1_alg».proof.Proof.Spec

noncomputable section

namespace Cert.KernelIdeal.Dense1

open Idealize.ShloMosaic Idealize.ShloMosaic.TcCoe Idealize.ShloMosaic.ValueIdx ColumnLayout
open Idealize.SL.Sem
open Idealize.ShloMosaic.Pipeline (Dat)
open Cert.KernelIdeal Cert.KernelIdeal.Gen GcnSpec

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The region's output as one function of the arrays it finds: features, out-degree column, weights. -/
def G (c : Dev nD) : S50000x64.Idx → EReal :=
  scaleMatmul (n := 50000) (k := 256) (c := 64) (V c main_arg0 : S50000x256.Idx → EReal)
    (colVec (V c main_v14 : S50000x1.Idx → EReal)) (V c main_arg3 : S256x64.Idx → EReal)

/-- The printed index maps over the grid: the row-blocked windows sit at block row `t`, column block 0; the
    weight window stays at the origin. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x64) hz]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q) = G V c (((cfg0.win 3).blk t).view.emb (ix2 p q))
  refine (pay_apply (iblk0 V c 0 t) (iblk0 V c 1 t) (iblk0 V c 2 t) p q).trans ?_
  unfold G scaleMatmul
  refine Finset.sum_congr rfl fun k _ => ?_
  have h0 : ((cfg0.win 0).blk t).view.emb (ix2 p k) = ix2 (row (((cfg0.win 3).blk t).view.emb (ix2 p q))) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have h1 : ((cfg0.win 1).blk t).view.emb (ix2 p (0 : Fin 1)) = ix2 (row (((cfg0.win 3).blk t).view.emb (ix2 p q))) (0 : Fin 1) := by
    funext a; apply Fin.ext
    match a with
    | ⟨0, _⟩ => show win0_1.index t (0 : Fin 2) * 5000 + 1 * p.val = win0_3.index t (0 : Fin 2) * 5000 + 1 * p.val; omega
    | ⟨1, _⟩ => show win0_1.index t (1 : Fin 2) * 1 + 1 * 0 = 0; omega
  have h2 : ((cfg0.win 2).blk t).view.emb (ix2 k q) = ix2 k (col (((cfg0.win 3).blk t).view.emb (ix2 p q))) := by
    funext a; apply Fin.ext
    match a with
    | ⟨0, _⟩ => show win0_2.index t (0 : Fin 2) * 256 + 1 * k.val = k.val; omega
    | ⟨1, _⟩ => show win0_2.index t (1 : Fin 2) * 64 + 1 * q.val = win0_3.index t (1 : Fin 2) * 64 + 1 * q.val; omega
  refine congrArg₂ (· * ·) (congrArg₂ (· * ·) ?_ ?_) ?_
  · show V c main_arg0 (((cfg0.win 0).blk t).view.emb (ix2 p k)) = _
    rw [h0]
  · show V c main_v14 (((cfg0.win 1).blk t).view.emb (ix2 p (0 : Fin 1))) = _
    rw [h1]; rfl
  · show V c main_arg3 (((cfg0.win 2).blk t).view.emb (ix2 k q)) = _
    rw [h2]

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- Every row lies in the block of the point `row / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < 10 := by omega
  refine ⟨⟨(i 0).val / 5000, ht⟩, flush0_3 _, ?_⟩
  rw [mem_blk]
  obtain ⟨-, -, -, -, -, -, e30, e31⟩ := idx_facts ⟨(i 0).val / 5000, ht⟩
  have e30' : win0_3.index ⟨(i 0).val / 5000, ht⟩ (0 : Fin 2) = (i 0).val / 5000 := e30
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    omega

/-- The output array after the region: the degree-scaled features times the weights. -/
theorem final (c : Dev nD) : (dat0 V c).arrAt 3 cfg0.N = G V c :=
  (dat0 V c).arrAt_eq_of_cover 3 (G V c) (fun t _ => flushed_eq V c t) cover

end Cert.KernelIdeal.Dense1

end
-- ==== Proof.Bias1Pay.lean ====
/-
  The second kernel's block payload read at an index. A block holds 5000 node rows of the first layer's edge
  aggregate; the body scales each row by its node's in-degree factor (a column of the block, broadcast over the 64
  hidden features), adds the bias (one row, broadcast over the 5000 nodes) and takes the positive part. Entry
  `(p, q)` of the payload is `max (a p q · r p + b q) 0`.
-/
import proofs.«154340_j13889924235582_1_alg».proof.Proof.Gen.KernelIdeal.Frame
import proofs.«154340_j13889924235582_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bias1

open Idealize.ShloMosaic Idealize.ShloMosaic.ValueIdx ColumnLayout
open Cert.KernelIdeal Cert.KernelIdeal.Gen

/-- Entry `(p, q)` of the block's payload: the scaled, shifted aggregate's positive part. -/
theorem pay_apply (x0 : Vec Ideal S5000x64 .f32) (x1 : Vec Ideal S5000x1 .f32) (x2 : Vec Ideal S1x64 .f32)
    (p : Fin 5000) (q : Fin 64) :
    k1_pay1 x0 x1 x2 (ix2 p q) = max (x0 (ix2 p q) * x1 (ix2 p (0 : Fin 1)) + x2 (ix2 (0 : Fin 1) q)) 0 := by
  unfold k1_pay1
  show max ((shapeCast S5000x64 x0 shapeCasts_S5000x64_S5000x64 (ix2 p q)
        * broadcastTo S5000x64 (shapeCast S5000x1 x1 shapeCasts_S5000x1_S5000x1) broadcasts_S5000x1_S5000x64 (ix2 p q))
      + broadcastTo S5000x64 (shapeCast S1x64 x2 shapeCasts_S1x64_S1x64) broadcasts_S1x64_S5000x64 (ix2 p q))
      (Ideal.ofBits .f32 0x00000000#32) = _
  rw [broadcastTo_a1_ab_apply, broadcastTo_1b_ab_apply, shapeCast_self, shapeCast_self, shapeCast_self, Ideal.ofBits_zero_f32]

end Cert.KernelIdeal.Bias1

end
-- ==== Proof.Bias1.lean ====
/-
  The second kernel region's output array. Ten blocks of 5000 node rows; at block `t` the region reads those rows
  of the first layer's edge aggregate and of the in-degree column, the one bias row, and writes the same rows of
  the output: the restriction of `relu (scaleBias aggregate factor bias)` to the block. The blocks tile the rows.
-/
import proofs.«154340_j13889924235582_1_alg».proof.Proof.Bias1Pay
import proofs.«154340_j13889924235582_1_alg».proof.Proof.Spec

noncomputable section

namespace Cert.KernelIdeal.Bias1

open Idealize.ShloMosaic Idealize.ShloMosaic.TcCoe Idealize.ShloMosaic.ValueIdx ColumnLayout
open Idealize.SL.Sem
open Idealize.ShloMosaic.Pipeline (Dat)
open Cert.KernelIdeal Cert.KernelIdeal.Gen GcnSpec

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, column block 0; the
    third window (the weights, or the bias row) stays at the origin. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The region's output as one function of the arrays it finds: aggregate, in-degree column, bias row. -/
def G (c : Dev nD) : S50000x64.Idx → EReal :=
  relu (scaleBias (n := 50000) (c := 64) (V c main_v26 : S50000x64.Idx → EReal)
    (colVec (V c main_v15 : S50000x1.Idx → EReal)) (rowVec (V c main_v27 : S1x64.Idx → EReal)))

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q) = G V c (((cfg1.win 3).blk t).view.emb (ix2 p q))
  refine (Bias1.pay_apply (iblk1 V c 0 t) (iblk1 V c 1 t) (iblk1 V c 2 t) p q).trans ?_
  unfold G relu scaleBias
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * q.val = win1_3.index t (1 : Fin 2) * 64 + 1 * q.val; omega
  have h1 : ((cfg1.win 1).blk t).view.emb (ix2 p (0 : Fin 1)) = ix2 (row (((cfg1.win 3).blk t).view.emb (ix2 p q))) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : ((cfg1.win 2).blk t).view.emb (ix2 (0 : Fin 1) q) = ix2 (0 : Fin 1) (col (((cfg1.win 3).blk t).view.emb (ix2 p q))) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  refine congrArg (fun s : EReal => max s 0) (congrArg₂ (· + ·) (congrArg₂ (· * ·) ?_ ?_) ?_)
  · show V c main_v26 (((cfg1.win 0).blk t).view.emb (ix2 p q)) = _
    rw [h0]
  · show V c main_v15 (((cfg1.win 1).blk t).view.emb (ix2 p (0 : Fin 1))) = _
    rw [h1]; rfl
  · show V c main_v27 (((cfg1.win 2).blk t).view.emb (ix2 (0 : Fin 1) q)) = _
    rw [h2]; rfl

/-- An index of the array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v28).slice (win1_3.rect t)).set ↔ _
  rw [View.set_slice_whole, Rect.mem_set_unit]
  exact Iff.rfl

/-- Every row lies in the block of the point `row / 5000`. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 5000 < 10 := by omega
  refine ⟨⟨(i 0).val / 5000, ht⟩, flush1_3 _, ?_⟩
  rw [mem_blk]
  obtain ⟨-, -, -, -, -, -, e30, e31⟩ := idx_facts ⟨(i 0).val / 5000, ht⟩
  have e30' : win1_3.index ⟨(i 0).val / 5000, ht⟩ (0 : Fin 2) = (i 0).val / 5000 := e30
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    omega

/-- The output array after the region. -/
theorem final (c : Dev nD) : (dat1 V c).arrAt 3 cfg1.N = G V c :=
  (dat1 V c).arrAt_eq_of_cover 3 (G V c) (fun t _ => flushed_eq V c t) cover

end Cert.KernelIdeal.Bias1

end
-- ==== Proof.Dense2Pay.lean ====
/-
  The third kernel's block payload read at an index. The second layer's dense stage on a block of 5000 node rows:
  each hidden row (64 features) is scaled by its node's out-degree factor and multiplied by the 64 × 2 weight
  matrix into a zero accumulator. Entry `(p, q)` of the payload is `Σ k, (h p k · r p) · w k q`.
-/
import proofs.«154340_j13889924235582_1_alg».proof.Proof.Gen.KernelIdeal.Frame
import proofs.«154340_j13889924235582_1_alg».proof.Proof.LibColumn
import Idealize.ShloMosaic.Lib.Pipeline.Value
import Idealize.ShloMosaic.Lib.ValueIdx
import Idealize.ShloMosaic.PureOps.Ideal.Laws

noncomputable section

namespace Cert.KernelIdeal.Dense2

open Idealize.ShloMosaic Idealize.ShloMosaic.ValueIdx ColumnLayout
open Cert.KernelIdeal Cert.KernelIdeal.Gen

/-- The block product's dimension numbers: rows × (contracted 64) and (contracted 64) × columns. -/
abbrev D := dot_S5000x64_S64x2_S5000x2_1_0_0_1_n_n

theorem lhs_row (i : S5000x2.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl

theorem rhs_col (i : S5000x2.Idx) (q : D.contr.Idx) : (D.rhsIdx i q 1).val = (i 1).val := by
  unfold DotDims.rhsIdx
  rw [dif_neg (show ¬(1 : Fin S64x2.rank) ∈ D.rhsBatch by decide), dif_pos (show (1 : Fin S64x2.rank) ∈ D.rhsNonContracting by decide)]
  rfl

/-- Entry `(p, q)` of the block's payload: the scaled hidden row `p` against column `q` of the weights. -/
theorem pay_apply (x0 : Vec Ideal S5000x64 .f32) (x1 : Vec Ideal S5000x1 .f32) (x2 : Vec Ideal S64x2 .f32)
    (p : Fin 5000) (q : Fin 2) :
    k2_pay1 x0 x1 x2 (ix2 p q) = ∑ k : Fin 64, (x0 (ix2 p k) * x1 (ix2 p (0 : Fin 1))) * x2 (ix2 k q) := by
  unfold k2_pay1
  refine (Ideal.matmul_constant_zero_apply D none _ _ (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p q) ((contrEquiv1 D 64 rfl rfl).symm k) = ix2 k q := funext fun a => Fin.ext (by
    match a with
    | ⟨0, _⟩ => exact (D.rhsIdx_val_of_single rfl _ _).trans hk
    | ⟨1, _⟩ => exact rhs_col _ _)
  rw [el, er]
  show (shapeCast S5000x64 x0 shapeCasts_S5000x64_S5000x64 (ix2 p k)
      * broadcastTo S5000x64 (shapeCast S5000x1 x1 shapeCasts_S5000x1_S5000x1) broadcasts_S5000x1_S5000x64 (ix2 p k)) * x2 (ix2 k q) = _
  rw [broadcastTo_a1_ab_apply, shapeCast_self, shapeCast_self]

end Cert.KernelIdeal.Dense2

end
-- ==== Proof.Dense2.lean ====
/-
  The third kernel region's output array. Ten blocks of 5000 node rows; at block `t` the region reads those rows
  of the hidden features and of the out-degree column, the whole 64 × 2 weight matrix, and writes the same rows of
  the output: the restriction of `scaleMatmul hidden factor weights` to the block. The blocks tile the rows.
-/
import proofs.«154340_j13889924235582_1_alg».proof.Proof.Dense2Pay
import proofs.«154340_j13889924235582_1_alg».proof.Proof.Spec

noncomputable section

namespace Cert.KernelIdeal.Dense2

open Idealize.ShloMosaic Idealize.ShloMosaic.TcCoe Idealize.ShloMosaic.ValueIdx ColumnLayout
open Idealize.SL.Sem
open Idealize.ShloMosaic.Pipeline (Dat)
open Cert.KernelIdeal Cert.KernelIdeal.Gen GcnSpec

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, column block 0; the
    third window (the weights, or the bias row) stays at the origin. -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The region's output as one function of the arrays it finds: hidden features, out-degree column, weights. -/
def G (c : Dev nD) : S50000x2.Idx → EReal :=
  scaleMatmul (n := 50000) (k := 64) (c := 2) (V c main_v28 : S50000x64.Idx → EReal)
    (colVec (V c main_v29 : S50000x1.Idx → EReal)) (V c main_arg5 : S64x2.Idx → EReal)

/-- What point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S64x2) hz]
  obtain ⟨e00, e01, e10, e11, e20, e21, e30, e31⟩ := idx_facts t
  funext j
  obtain ⟨p, q, rfl⟩ : ∃ (p : Fin 5000) (q : Fin 2), j = ix2 p q := ⟨j 0, j 1, eq_ix2 j⟩
  show k2_pay1 (iblk2 V c 0 t) (iblk2 V c 1 t) (iblk2 V c 2 t) (ix2 p q) = G V c (((cfg2.win 3).blk t).view.emb (ix2 p q))
  refine (Dense2.pay_apply (iblk2 V c 0 t) (iblk2 V c 1 t) (iblk2 V c 2 t) p q).trans ?_
  unfold G scaleMatmul
  refine Finset.sum_congr rfl fun k _ => ?_
  have h0 : ((cfg2.win 0).blk t).view.emb (ix2 p k) = ix2 (row (((cfg2.win 3).blk t).view.emb (ix2 p q))) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have h1 : ((cfg2.win 1).blk t).view.emb (ix2 p (0 : Fin 1)) = ix2 (row (((cfg2.win 3).blk t).view.emb (ix2 p q))) (0 : Fin 1) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  have h2 : ((cfg2.win 2).blk t).view.emb (ix2 k q) = ix2 k (col (((cfg2.win 3).blk t).view.emb (ix2 p q))) := by
    funext a; apply Fin.ext
    match a with
    | ⟨0, _⟩ => show win2_2.index t (0 : Fin 2) * 64 + 1 * k.val = k.val; omega
    | ⟨1, _⟩ => show win2_2.index t (1 : Fin 2) * 2 + 1 * q.val = win2_3.index t (1 : Fin 2) * 2 + 1 * q.val; omega
  refine congrArg₂ (· * ·) (congrArg₂ (· * ·) ?_ ?_) ?_
  · show V c main_v28 (((cfg2.win 0).blk t).view.emb (ix2 p k)) = _
    rw [h0]
  · show V c main_v29 (((cfg2.win 1).blk t).view.emb (ix2 p (0 : Fin 1))) = _
    rw [h1]; rfl
  · show V c main_arg5 (((cfg2.win 2).blk t).view.emb (ix2 k q)) = _
    rw [h2]

/-- An index of the array is in point `t`'s block iff each coordinate is in the block's range on its axis. -/
theorem mem_blk (t : Fin cfg2.N) (i : S50000x2.Idx) :
    i ∈ ((cfg2.win 3).blk t).view.set ↔ ∀ a : Fin 2, win2_3.index t a * S5000x2.size a ≤ (i a).val ∧ (i a).val < win2_3.index t a * S5000x2.size a + S5000x2.size a := by
  show i ∈ ((View.whole main_v31).slice (win2_3.rect t)).set ↔ _
  rw [View.set_slice_whole, Rect.mem_set_unit]
  exact Iff.rfl

/-- Every row lies in the block of the point `row / 5000`. -/
theorem cover (i : S50000x2.Idx) : ∃ t : Fin cfg2.N, (cfg2.win 3).flush t = true ∧ i ∈ ((cfg2.win 3).blk t).view.set := by
  have hi0 : (i 0).val < 50000 := (i 0).isLt
  have hi1 : (i 1).val < 2 := (i 1).isLt
  have ht : (i 0).val / 5000 < 10 := by omega
  refine ⟨⟨(i 0).val / 5000, ht⟩, flush2_3 _, ?_⟩
  rw [mem_blk]
  obtain ⟨-, -, -, -, -, -, e30, e31⟩ := idx_facts ⟨(i 0).val / 5000, ht⟩
  have e30' : win2_3.index ⟨(i 0).val / 5000, ht⟩ (0 : Fin 2) = (i 0).val / 5000 := e30
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    omega
  | ⟨1, _⟩ =>
    show win2_3.index ⟨(i 0).val / 5000, ht⟩ (1 : Fin 2) * 2 ≤ (i 1).val ∧ (i 1).val < win2_3.index ⟨(i 0).val / 5000, ht⟩ (1 : Fin 2) * 2 + 2
    omega

/-- The output array after the region. -/
theorem final (c : Dev nD) : (dat2 V c).arrAt 3 cfg2.N = G V c :=
  (dat2 V c).arrAt_eq_of_cover 3 (G V c) (fun t _ => flushed_eq V c t) cover

end Cert.KernelIdeal.Dense2

end
-- ==== Proof.SoftmaxPay.lean ====
/-
  The fourth kernel's block payload read at an index. On a block of 5000 node rows the body forms the logits
  `y p j = a p j · r p + b j` (the second layer's aggregate scaled by the in-degree factor, plus the bias), takes each
  row's maximum `m p` over its two classes (a maximum-reduction started from `-∞`), the logarithm of the row's sum of
  `exp (y p j - m p)`, and stores `y p q - (m p + log Σ)`: the maximum and the logarithm are added first and
  subtracted together.
-/
import proofs.«154340_j13889924235582_1_alg».proof.Proof.Gen.KernelIdeal.Frame
import proofs.«154340_j13889924235582_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Softmax

open Idealize.ShloMosaic Idealize.ShloMosaic.ValueIdx ColumnLayout
open Cert.KernelIdeal Cert.KernelIdeal.Gen

/-- The f32 pattern of `-∞` is the bottom of the extended reals. -/
theorem ofBits_neg_inf_f32 : Ideal.ofBits .f32 0xFF800000#32 = (⊥ : EReal) := by simp [Ideal.ofBits, Ideal.ieee]

/-- A fold of `max` over two values. -/
theorem fold_max_two (b : EReal) (f : Fin 2 → EReal) :
    (Finset.univ : Finset (Fin 2)).fold max b f = max (f 0) (max (f 1) b) := by
  simp only [Fin.univ_succ, Finset.fold_cons, Finset.fold_map, Finset.univ_unique, Finset.fold_singleton]
  rfl

/-- Putting the class coordinate back into a row index. -/
theorem lift_eq (p : Fin 5000) (k : Fin 2) : reduces_S5000x2_S5000.lift (ix1 p) k = ix2 p k :=
  funext fun a => Fin.ext (by match a with | ⟨0, _⟩ => rfl | ⟨1, _⟩ => rfl)

/-- A row's maximum over its two classes, started from `-∞`. -/
theorem rowMax_read (v : FVec Ideal S5000x2 .f32) (p : Fin 5000) :
    multiReduction .maximumf [1] S5000 v 0xFF800000#32 reduces_S5000x2_S5000 (.inl rfl) rfl (ix1 p)
      = max (v (ix2 p 0)) (v (ix2 p 1)) := by
  refine (Ideal.multiReduction_maximumf_single v 0xFF800000#32 reduces_S5000x2_S5000 (.inl rfl) rfl (ix1 p)).trans ?_
  refine (fold_max_two _ _).trans ?_
  show max (v (reduces_S5000x2_S5000.lift (ix1 p) (0 : Fin 2))) (max (v (reduces_S5000x2_S5000.lift (ix1 p) (1 : Fin 2))) (Ideal.ofBits .f32 0xFF800000#32)) = _
  rw [lift_eq, lift_eq, ofBits_neg_inf_f32, max_bot_right]

/-- A row's sum over its two classes. -/
theorem rowSum_read (v : FVec Ideal S5000x2 .f32) (p : Fin 5000) :
    multiReduction .add [1] S5000 v 0x00000000#32 reduces_S5000x2_S5000 (.inl rfl) rfl (ix1 p)
      = ∑ j : Fin 2, v (ix2 p j) := by
  refine (Ideal.multiReduction_add_single v 0x00000000#32 reduces_S5000x2_S5000 (.inl rfl) rfl (ix1 p)).trans ?_
  exact Finset.sum_congr rfl fun k _ => congrArg v (lift_eq p k)

/-- The block's logits: the aggregate scaled row by row, plus the bias. -/
def logitsBlk (x0 : Vec Ideal S5000x2 .f32) (x1 : Vec Ideal S5000x1 .f32) (x2 : Vec Ideal S1x2 .f32) : FVec Ideal S5000x2 .f32 :=
  addf (mulf (shapeCast S5000x2 x0 shapeCasts_S5000x2_S5000x2)
      (broadcastTo S5000x2 (shapeCast S5000x1 x1 shapeCasts_S5000x1_S5000x1) broadcasts_S5000x1_S5000x2))
    (broadcastTo S5000x2 (shapeCast S1x2 x2 shapeCasts_S1x2_S1x2) broadcasts_S1x2_S5000x2)

theorem logitsBlk_apply (x0 : Vec Ideal S5000x2 .f32) (x1 : Vec Ideal S5000x1 .f32) (x2 : Vec Ideal S1x2 .f32)
    (p : Fin 5000) (j : Fin 2) :
    logitsBlk x0 x1 x2 (ix2 p j) = x0 (ix2 p j) * x1 (ix2 p (0 : Fin 1)) + x2 (ix2 (0 : Fin 1) j) := by
  show shapeCast S5000x2 x0 shapeCasts_S5000x2_S5000x2 (ix2 p j)
      * broadcastTo S5000x2 (shapeCast S5000x1 x1 shapeCasts_S5000x1_S5000x1) broadcasts_S5000x1_S5000x2 (ix2 p j)
      + broadcastTo S5000x2 (shapeCast S1x2 x2 shapeCasts_S1x2_S1x2) broadcasts_S1x2_S5000x2 (ix2 p j) = _
  rw [broadcastTo_a1_ab_apply, broadcastTo_1b_ab_apply, shapeCast_self, shapeCast_self, shapeCast_self]

/-- The row maximum as the body holds it: a column. -/
def maxCol (y : FVec Ideal S5000x2 .f32) : FVec Ideal S5000x1 .f32 :=
  shapeCast S5000x1 (multiReduction .maximumf [1] S5000 y 0xFF800000#32 reduces_S5000x2_S5000 (.inl rfl) rfl) shapeCasts_S5000_S5000x1

theorem maxCol_apply (y : FVec Ideal S5000x2 .f32) (p : Fin 5000) (u : Fin 1) :
    maxCol y (ix2 p u) = max (y (ix2 p 0)) (y (ix2 p 1)) := by
  unfold maxCol
  rw [shapeCast_a_a1_apply, rowMax_read]

/-- The body's tail on the logits: `y - broadcast (m + log (Σ exp (y - broadcast m)))`. -/
def tail (y : FVec Ideal S5000x2 .f32) : FVec Ideal S5000x2 .f32 :=
  subf y (broadcastTo S5000x2
    (addf (maxCol y)
      (log (shapeCast S5000x1
        (multiReduction .add [1] S5000 (exp (subf y (broadcastTo S5000x2 (maxCol y) broadcasts_S5000x1_S5000x2))) 0x00000000#32
          reduces_S5000x2_S5000 (.inl rfl) rfl) shapeCasts_S5000_S5000x1)))
    broadcasts_S5000x1_S5000x2)

theorem pay_eq_tail (x0 : Vec Ideal S5000x2 .f32) (x1 : Vec Ideal S5000x1 .f32) (x2 : Vec Ideal S1x2 .f32) :
    k3_pay1 x0 x1 x2 = tail (logitsBlk x0 x1 x2) := rfl

theorem tail_apply (y : FVec Ideal S5000x2 .f32) (p : Fin 5000) (q : Fin 2) :
    tail y (ix2 p q) = y (ix2 p q) - (max (y (ix2 p 0)) (y (ix2 p 1))
      + Ideal.log (∑ j : Fin 2, Ideal.exp (y (ix2 p j) - max (y (ix2 p 0)) (y (ix2 p 1))))) := by
  unfold tail
  show y (ix2 p q) - broadcastTo S5000x2 _ broadcasts_S5000x1_S5000x2 (ix2 p q) = _
  rw [broadcastTo_a1_ab_apply]
  show y (ix2 p q) - (maxCol y (ix2 p (0 : Fin 1)) + Ideal.log (shapeCast S5000x1 _ shapeCasts_S5000_S5000x1 (ix2 p (0 : Fin 1)))) = _
  rw [maxCol_apply, shapeCast_a_a1_apply, rowSum_read]
  refine congrArg (fun s => y (ix2 p q) - (max (y (ix2 p 0)) (y (ix2 p 1)) + Ideal.log s)) ?_
  refine Finset.sum_congr rfl fun j _ => ?_
  show Ideal.exp (y (ix2 p j) - broadcastTo S5000x2 (maxCol y) broadcasts_S5000x1_S5000x2 (ix2 p j)) = _
  rw [broadcastTo_a1_ab_apply, maxCol_apply]

end Cert.KernelIdeal.Softmax

end
-- ==== Proof.Softmax.lean ====
/-
  The fourth kernel region's output array. Ten blocks of 5000 node rows; at block `t` the region reads those rows
  of the second layer's edge aggregate and of the in-degree column, the one bias row, and writes the same rows of
  the output: the restriction to the block of the log-softmax (maximum and logarithm subtracted together,
  `lsmOuter`) of the logits `scaleBias aggregate factor bias`. A row of the output depends only on the same row of
  the logits, and a block holds whole rows, so the block's row maximum and row sum are the array's.
-/
import proofs.«154340_j13889924235582_1_alg».proof.Proof.SoftmaxPay
import proofs.«154340_j13889924235582_1_alg».proof.Proof.Spec

noncomputable section

namespace Cert.KernelIdeal.Softmax

open Idealize.ShloMosaic Idealize.ShloMosaic.TcCoe Idealize.ShloMosaic.ValueIdx ColumnLayout
open Idealize.SL.Sem
open Idealize.ShloMosaic.Pipeline (Dat)
open Cert.KernelIdeal Cert.KernelIdeal.Gen GcnSpec

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, column block 0; the
    third window (the weights, or the bias row) stays at the origin. -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The logits the region forms from the arrays it finds: aggregate, in-degree column, bias row. -/
def Y (c : Dev nD) : S50000x2.Idx → EReal :=
  scaleBias (n := 50000) (c := 2) (V c main_v41 : S50000x2.Idx → EReal)
    (colVec (V c main_v30 : S50000x1.Idx → EReal)) (rowVec (V c main_v42 : S1x2.Idx → EReal))

/-- The region's output as one function of the arrays it finds. -/
def G (c : Dev nD) : S50000x2.Idx → EReal := lsmOuter (Y V c)

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x2) hz, View.ld_unit_zero (S := S5000x1) hz, View.ld_unit_zero (S := S1x2) hz]
  obtain ⟨e00, e01, e10, e11, e20, e21, e30, e31⟩ := idx_facts t
  funext j
  obtain ⟨p, q, rfl⟩ : ∃ (p : Fin 5000) (q : Fin 2), j = ix2 p q := ⟨j 0, j 1, eq_ix2 j⟩
  show k3_pay1 (iblk3 V c 0 t) (iblk3 V c 1 t) (iblk3 V c 2 t) (ix2 p q) = G V c (((cfg3.win 3).blk t).view.emb (ix2 p q))
  rw [Softmax.pay_eq_tail]
  refine (Softmax.tail_apply _ p q).trans ?_
  -- the array row this block row is
  have he : ((cfg3.win 3).blk t).view.emb (ix2 p q) = ix2 (row (((cfg3.win 3).blk t).view.emb (ix2 p q))) q := by
    funext a; apply Fin.ext
    match a with
    | ⟨0, _⟩ => rfl
    | ⟨1, _⟩ => show win3_3.index t (1 : Fin 2) * 2 + 1 * q.val = q.val; omega
  -- the block's logits are the array's logits of that row
  have hL : ∀ j : Fin 2, Softmax.logitsBlk (iblk3 V c 0 t) (iblk3 V c 1 t) (iblk3 V c 2 t) (ix2 p j)
      = Y V c (ix2 (row (((cfg3.win 3).blk t).view.emb (ix2 p q))) j) := by
    intro j
    refine (Softmax.logitsBlk_apply (iblk3 V c 0 t) (iblk3 V c 1 t) (iblk3 V c 2 t) p j).trans ?_
    unfold Y scaleBias
    have h0 : ((cfg3.win 0).blk t).view.emb (ix2 p j) = ix2 (row (((cfg3.win 3).blk t).view.emb (ix2 p q))) j := by
      funext a; apply Fin.ext
      match a with
      | ⟨0, _⟩ => show win3_0.index t (0 : Fin 2) * 5000 + 1 * p.val = win3_3.index t (0 : Fin 2) * 5000 + 1 * p.val; omega
      | ⟨1, _⟩ => show win3_0.index t (1 : Fin 2) * 2 + 1 * j.val = j.val; omega
    have h1 : ((cfg3.win 1).blk t).view.emb (ix2 p (0 : Fin 1)) = ix2 (row (((cfg3.win 3).blk t).view.emb (ix2 p q))) (0 : Fin 1) := by
      funext a; apply Fin.ext
      match a with
      | ⟨0, _⟩ => show win3_1.index t (0 : Fin 2) * 5000 + 1 * p.val = win3_3.index t (0 : Fin 2) * 5000 + 1 * p.val; omega
      | ⟨1, _⟩ => show win3_1.index t (1 : Fin 2) * 1 + 1 * 0 = 0; omega
    have h2 : ((cfg3.win 2).blk t).view.emb (ix2 (0 : Fin 1) j) = ix2 (0 : Fin 1) j := by
      funext a; apply Fin.ext
      match a with
      | ⟨0, _⟩ => show win3_2.index t (0 : Fin 2) * 1 + 1 * 0 = 0; omega
      | ⟨1, _⟩ => show win3_2.index t (1 : Fin 2) * 2 + 1 * j.val = j.val; omega
    refine congrArg₂ (· + ·) (congrArg₂ (· * ·) ?_ ?_) ?_
    · show V c main_v41 (((cfg3.win 0).blk t).view.emb (ix2 p j)) = _
      rw [h0]
    · show V c main_v30 (((cfg3.win 1).blk t).view.emb (ix2 p (0 : Fin 1))) = _
      rw [h1]; rfl
    · show V c main_v42 (((cfg3.win 2).blk t).view.emb (ix2 (0 : Fin 1) j)) = _
      rw [h2]; rfl
  simp only [hL]
  have hG : G V c (((cfg3.win 3).blk t).view.emb (ix2 p q))
      = G V c (ix2 (row (((cfg3.win 3).blk t).view.emb (ix2 p q))) q) := congrArg (G V c) he
  rw [hG]
  rfl

/-- An index of the array is in point `t`'s block iff each coordinate is in the block's range on its axis. -/
theorem mem_blk (t : Fin cfg3.N) (i : S50000x2.Idx) :
    i ∈ ((cfg3.win 3).blk t).view.set ↔ ∀ a : Fin 2, win3_3.index t a * S5000x2.size a ≤ (i a).val ∧ (i a).val < win3_3.index t a * S5000x2.size a + S5000x2.size a := by
  show i ∈ ((View.whole main_v43).slice (win3_3.rect t)).set ↔ _
  rw [View.set_slice_whole, Rect.mem_set_unit]
  exact Iff.rfl

/-- Every row lies in the block of the point `row / 5000`. -/
theorem cover (i : S50000x2.Idx) : ∃ t : Fin cfg3.N, (cfg3.win 3).flush t = true ∧ i ∈ ((cfg3.win 3).blk t).view.set := by
  have hi0 : (i 0).val < 50000 := (i 0).isLt
  have hi1 : (i 1).val < 2 := (i 1).isLt
  have ht : (i 0).val / 5000 < 10 := by omega
  refine ⟨⟨(i 0).val / 5000, ht⟩, flush3_3 _, ?_⟩
  rw [mem_blk]
  obtain ⟨-, -, -, -, -, -, e30, e31⟩ := idx_facts ⟨(i 0).val / 5000, ht⟩
  have e30' : win3_3.index ⟨(i 0).val / 5000, ht⟩ (0 : Fin 2) = (i 0).val / 5000 := e30
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    omega
  | ⟨1, _⟩ =>
    show win3_3.index ⟨(i 0).val / 5000, ht⟩ (1 : Fin 2) * 2 ≤ (i 1).val ∧ (i 1).val < win3_3.index ⟨(i 0).val / 5000, ht⟩ (1 : Fin 2) * 2 + 2
    omega

/-- The output array after the region. -/
theorem final (c : Dev nD) : (dat3 V c).arrAt 3 cfg3.N = G V c :=
  (dat3 V c).arrAt_eq_of_cover 3 (G V c) (fun t _ => flushed_eq V c t) cover

end Cert.KernelIdeal.Softmax

end
-- ==== Proof.KernelHost.lean ====
/-
  What each region's input arrays hold when the region is entered, read back through the program's fold of buffer
  contents (the generated frame's `W0 … W8`: the launch memory, then alternately a stretch of host operations and a
  region) to the launch memory and to the previous region's output array.

  A stretch leaves a buffer none of its operations writes as it was, and a region leaves every buffer that is not one
  of its arrays as it was; a buffer a stretch does write holds the stretch's operations composed, with the stretch's
  entry contents at the leaves. The composed terms are named once: the degree factor `rsqrt (max (degree, 1))` of an
  index array, the wrapped source indices, and the two layers' edge aggregations (gather along the sources,
  accumulating scatter into the destinations).
-/
import proofs.«154340_j13889924235582_1_alg».proof.Proof.Gen.KernelIdeal.Frame
import Idealize.ShloMosaic.Lib.StableHlo.Run
import Idealize.ShloMosaic.PureOps.Ideal

set_option maxRecDepth 16384

noncomputable section

namespace Cert.KernelIdeal.HostGlue

open Idealize.ShloMosaic Idealize.ShloMosaic.TcCoe Idealize.SL.Sem
open Cert.KernelIdeal.Gen

/-! ### The host operations' composed terms -/

/-- The degree factor of an index array: `rsqrt (max (degree, 1))`, the degree being the accumulating scatter of
    ones along the indices into zeros. -/
def degFactor (x : (⟨S800000, .i32⟩ : BufTy).Contents (Elt Ideal)) : (⟨S50000, .f32⟩ : BufTy).Contents (Elt Ideal) :=
  Host.rsqrt (maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 x)
      (broadcastInDim S800000 ![] bcast_S_S800000 (constant (F := Ideal) S_ .f32 0x3F800000#32)))
    (broadcastInDim S50000 ![] bcast_S_S50000 (constant (F := Ideal) S_ .f32 0x3F800000#32)))

/-- The gather's start indices: a negative index wrapped by the number of nodes, as a column. -/
def srcIdx (x1 : (⟨S800000, .i32⟩ : BufTy).Contents (Elt Ideal)) : (⟨S800000x1, .i32⟩ : BufTy).Contents (Elt Ideal) :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The first layer's edge aggregation: rows gathered along the sources, accumulated into the destinations. -/
def agg64 (x1 x2 : (⟨S800000, .i32⟩ : BufTy).Contents (Elt Ideal)) (h : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 x2)
    (Host.gather gather_S50000x64_S800000x1_S800000x64_1_0_n_n_0_1_164 h (srcIdx x1))

/-- The second layer's edge aggregation. -/
def agg2 (x1 x2 : (⟨S800000, .i32⟩ : BufTy).Contents (Elt Ideal)) (h : (⟨S50000x2, .f32⟩ : BufTy).Contents (Elt Ideal)) :
    (⟨S50000x2, .f32⟩ : BufTy).Contents (Elt Ideal) :=
  Host.scatterAdd scatter_S50000x2_S800000x1_S800000x2_1_0_0_1
    (broadcastInDim S50000x2 ![] bcast_S_S50000x2 (constant (F := Ideal) S_ .f32 0x00000000#32))
    (broadcastInDim S800000x1 ![0] bcast_S800000_S800000x1_0 x2)
    (Host.gather gather_S50000x2_S800000x1_S800000x2_1_0_n_n_0_1_12 h (srcIdx x1))

/-- A stretch of host operations leaves a buffer none of them writes as it was. -/
local macro "not_written" : tactic => `(tactic|
  exact StableHlo.after_of_forall_not_mem _ _ (List.forall_iff_forall_mem.mp (by
    simp only [hostOps0, hostOps1, hostOps2, hostOps3, List.Forall, StableHlo.nullary_writes, StableHlo.unary_writes,
      StableHlo.binary_writes, StableHlo.ternary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ### The index arrays and the later arguments are the launch memory's at every boundary they are read at -/

private theorem W1_arg1 : W1 m ρ c (Proc.devRef .tc main_arg1) = m ((c : Thread nD τ).loc main_arg1) :=
  (show W1 m ρ c (Proc.devRef .tc main_arg1) = W0 m ρ c (Proc.devRef .tc main_arg1) by not_written).trans rfl
private theorem W1_arg2 : W1 m ρ c (Proc.devRef .tc main_arg2) = m ((c : Thread nD τ).loc main_arg2) :=
  (show W1 m ρ c (Proc.devRef .tc main_arg2) = W0 m ρ c (Proc.devRef .tc main_arg2) by not_written).trans rfl
private theorem W1_arg4 : W1 m ρ c (Proc.devRef .tc main_arg4) = m ((c : Thread nD τ).loc main_arg4) :=
  (show W1 m ρ c (Proc.devRef .tc main_arg4) = W0 m ρ c (Proc.devRef .tc main_arg4) by not_written).trans rfl
private theorem W1_arg5 : W1 m ρ c (Proc.devRef .tc main_arg5) = m ((c : Thread nD τ).loc main_arg5) :=
  (show W1 m ρ c (Proc.devRef .tc main_arg5) = W0 m ρ c (Proc.devRef .tc main_arg5) by not_written).trans rfl
private theorem W1_arg6 : W1 m ρ c (Proc.devRef .tc main_arg6) = m ((c : Thread nD τ).loc main_arg6) :=
  (show W1 m ρ c (Proc.devRef .tc main_arg6) = W0 m ρ c (Proc.devRef .tc main_arg6) by not_written).trans rfl

private theorem W2_arg1 : W2 m ρ c (Proc.devRef .tc main_arg1) = m ((c : Thread nD τ).loc main_arg1) :=
  (W2_of_ne m ρ c main_arg1 (by decide)).trans (W1_arg1 m ρ c)
private theorem W2_arg2 : W2 m ρ c (Proc.devRef .tc main_arg2) = m ((c : Thread nD τ).loc main_arg2) :=
  (W2_of_ne m ρ c main_arg2 (by decide)).trans (W1_arg2 m ρ c)
private theorem W2_arg4 : W2 m ρ c (Proc.devRef .tc main_arg4) = m ((c : Thread nD τ).loc main_arg4) :=
  (W2_of_ne m ρ c main_arg4 (by decide)).trans (W1_arg4 m ρ c)
private theorem W2_arg5 : W2 m ρ c (Proc.devRef .tc main_arg5) = m ((c : Thread nD τ).loc main_arg5) :=
  (W2_of_ne m ρ c main_arg5 (by decide)).trans (W1_arg5 m ρ c)
private theorem W2_arg6 : W2 m ρ c (Proc.devRef .tc main_arg6) = m ((c : Thread nD τ).loc main_arg6) :=
  (W2_of_ne m ρ c main_arg6 (by decide)).trans (W1_arg6 m ρ c)

private theorem W3_arg1 : W3 m ρ c (Proc.devRef .tc main_arg1) = m ((c : Thread nD τ).loc main_arg1) :=
  (show W3 m ρ c (Proc.devRef .tc main_arg1) = W2 m ρ c (Proc.devRef .tc main_arg1) by not_written).trans (W2_arg1 m ρ c)
private theorem W3_arg2 : W3 m ρ c (Proc.devRef .tc main_arg2) = m ((c : Thread nD τ).loc main_arg2) :=
  (show W3 m ρ c (Proc.devRef .tc main_arg2) = W2 m ρ c (Proc.devRef .tc main_arg2) by not_written).trans (W2_arg2 m ρ c)
private theorem W3_arg5 : W3 m ρ c (Proc.devRef .tc main_arg5) = m ((c : Thread nD τ).loc main_arg5) :=
  (show W3 m ρ c (Proc.devRef .tc main_arg5) = W2 m ρ c (Proc.devRef .tc main_arg5) by not_written).trans (W2_arg5 m ρ c)
private theorem W3_arg6 : W3 m ρ c (Proc.devRef .tc main_arg6) = m ((c : Thread nD τ).loc main_arg6) :=
  (show W3 m ρ c (Proc.devRef .tc main_arg6) = W2 m ρ c (Proc.devRef .tc main_arg6) by not_written).trans (W2_arg6 m ρ c)

private theorem W4_arg1 : W4 m ρ c (Proc.devRef .tc main_arg1) = m ((c : Thread nD τ).loc main_arg1) :=
  (W4_of_ne m ρ c main_arg1 (by decide)).trans (W3_arg1 m ρ c)
private theorem W4_arg2 : W4 m ρ c (Proc.devRef .tc main_arg2) = m ((c : Thread nD τ).loc main_arg2) :=
  (W4_of_ne m ρ c main_arg2 (by decide)).trans (W3_arg2 m ρ c)
private theorem W4_arg5 : W4 m ρ c (Proc.devRef .tc main_arg5) = m ((c : Thread nD τ).loc main_arg5) :=
  (W4_of_ne m ρ c main_arg5 (by decide)).trans (W3_arg5 m ρ c)
private theorem W4_arg6 : W4 m ρ c (Proc.devRef .tc main_arg6) = m ((c : Thread nD τ).loc main_arg6) :=
  (W4_of_ne m ρ c main_arg6 (by decide)).trans (W3_arg6 m ρ c)

private theorem W5_arg1 : W5 m ρ c (Proc.devRef .tc main_arg1) = m ((c : Thread nD τ).loc main_arg1) :=
  (show W5 m ρ c (Proc.devRef .tc main_arg1) = W4 m ρ c (Proc.devRef .tc main_arg1) by not_written).trans (W4_arg1 m ρ c)
private theorem W5_arg2 : W5 m ρ c (Proc.devRef .tc main_arg2) = m ((c : Thread nD τ).loc main_arg2) :=
  (show W5 m ρ c (Proc.devRef .tc main_arg2) = W4 m ρ c (Proc.devRef .tc main_arg2) by not_written).trans (W4_arg2 m ρ c)
private theorem W5_arg6 : W5 m ρ c (Proc.devRef .tc main_arg6) = m ((c : Thread nD τ).loc main_arg6) :=
  (show W5 m ρ c (Proc.devRef .tc main_arg6) = W4 m ρ c (Proc.devRef .tc main_arg6) by not_written).trans (W4_arg6 m ρ c)

private theorem W6_arg1 : W6 m ρ c (Proc.devRef .tc main_arg1) = m ((c : Thread nD τ).loc main_arg1) :=
  (W6_of_ne m ρ c main_arg1 (by decide)).trans (W5_arg1 m ρ c)
private theorem W6_arg2 : W6 m ρ c (Proc.devRef .tc main_arg2) = m ((c : Thread nD τ).loc main_arg2) :=
  (W6_of_ne m ρ c main_arg2 (by decide)).trans (W5_arg2 m ρ c)
private theorem W6_arg6 : W6 m ρ c (Proc.devRef .tc main_arg6) = m ((c : Thread nD τ).loc main_arg6) :=
  (W6_of_ne m ρ c main_arg6 (by decide)).trans (W5_arg6 m ρ c)

/-! ### The two degree factors: computed in the first stretch, read again after the second region -/

private theorem W1_v6 : W1 m ρ c (Proc.devRef .tc main_v6) = degFactor (m ((c : Thread nD τ).loc main_arg1)) := by
  show StableHlo.after hostOps0 (W0 m ρ c) (Proc.devRef .tc main_v6) = _
  after_results
  rfl
private theorem W1_v13 : W1 m ρ c (Proc.devRef .tc main_v13) = degFactor (m ((c : Thread nD τ).loc main_arg2)) := by
  show StableHlo.after hostOps0 (W0 m ρ c) (Proc.devRef .tc main_v13) = _
  after_results
  rfl

private theorem W4_v6 : W4 m ρ c (Proc.devRef .tc main_v6) = degFactor (m ((c : Thread nD τ).loc main_arg1)) :=
  (W4_of_ne m ρ c main_v6 (by decide)).trans
    ((show W3 m ρ c (Proc.devRef .tc main_v6) = W2 m ρ c (Proc.devRef .tc main_v6) by not_written).trans
      ((W2_of_ne m ρ c main_v6 (by decide)).trans (W1_v6 m ρ c)))
private theorem W4_v13 : W4 m ρ c (Proc.devRef .tc main_v13) = degFactor (m ((c : Thread nD τ).loc main_arg2)) :=
  (W4_of_ne m ρ c main_v13 (by decide)).trans
    ((show W3 m ρ c (Proc.devRef .tc main_v13) = W2 m ρ c (Proc.devRef .tc main_v13) by not_written).trans
      ((W2_of_ne m ρ c main_v13 (by decide)).trans (W1_v13 m ρ c)))

/-! ### Region 0's input arrays at its entry -/

theorem entry0_arg0 : W1 m ρ c (Proc.devRef .tc main_arg0) = m ((c : Thread nD τ).loc main_arg0) :=
  (show W1 m ρ c (Proc.devRef .tc main_arg0) = W0 m ρ c (Proc.devRef .tc main_arg0) by not_written).trans rfl

theorem entry0_arg3 : W1 m ρ c (Proc.devRef .tc main_arg3) = m ((c : Thread nD τ).loc main_arg3) :=
  (show W1 m ρ c (Proc.devRef .tc main_arg3) = W0 m ρ c (Proc.devRef .tc main_arg3) by not_written).trans rfl

theorem entry0_v14 : W1 m ρ c (Proc.devRef .tc main_v14)
    = shapeCast S50000x1 (degFactor (m ((c : Thread nD τ).loc main_arg1))) shapeCasts_S50000_S50000x1 := by
  show StableHlo.after hostOps0 (W0 m ρ c) (Proc.devRef .tc main_v14) = _
  after_results
  rfl

/-! ### Region 1's -/

theorem entry1_v26 : W3 m ρ c (Proc.devRef .tc main_v26)
    = agg64 (m ((c : Thread nD τ).loc main_arg1)) (m ((c : Thread nD τ).loc main_arg2)) (W2 m ρ c (Proc.devRef .tc main_v16)) := by
  show StableHlo.after hostOps1 (W2 m ρ c) (Proc.devRef .tc main_v26) = _
  after_results
  rw [W2_arg1, W2_arg2]
  rfl

theorem entry1_v15 : W3 m ρ c (Proc.devRef .tc main_v15)
    = shapeCast S50000x1 (degFactor (m ((c : Thread nD τ).loc main_arg2))) shapeCasts_S50000_S50000x1 := by
  refine (show W3 m ρ c (Proc.devRef .tc main_v15) = W2 m ρ c (Proc.devRef .tc main_v15) by not_written).trans
    ((W2_of_ne m ρ c main_v15 (by decide)).trans ?_)
  show StableHlo.after hostOps0 (W0 m ρ c) (Proc.devRef .tc main_v15) = _
  after_results
  rfl

theorem entry1_v27 : W3 m ρ c (Proc.devRef .tc main_v27)
    = shapeCast S1x64 (m ((c : Thread nD τ).loc main_arg4)) shapeCasts_S64_S1x64 := by
  show StableHlo.after hostOps1 (W2 m ρ c) (Proc.devRef .tc main_v27) = _
  after_results
  rw [W2_arg4]
  rfl

/-! ### Region 2's -/

theorem entry2_v28 : W5 m ρ c (Proc.devRef .tc main_v28) = W4 m ρ c (Proc.devRef .tc main_v28) := by
  not_written

theorem entry2_v29 : W5 m ρ c (Proc.devRef .tc main_v29)
    = shapeCast S50000x1 (degFactor (m ((c : Thread nD τ).loc main_arg1))) shapeCasts_S50000_S50000x1 := by
  show StableHlo.after hostOps2 (W4 m ρ c) (Proc.devRef .tc main_v29) = _
  after_results
  rw [W4_v6]
  rfl

theorem entry2_arg5 : W5 m ρ c (Proc.devRef .tc main_arg5) = m ((c : Thread nD τ).loc main_arg5) :=
  (show W5 m ρ c (Proc.devRef .tc main_arg5) = W4 m ρ c (Proc.devRef .tc main_arg5) by not_written).trans (W4_arg5 m ρ c)

/-! ### Region 3's -/

theorem entry3_v41 : W7 m ρ c (Proc.devRef .tc main_v41)
    = agg2 (m ((c : Thread nD τ).loc main_arg1)) (m ((c : Thread nD τ).loc main_arg2)) (W6 m ρ c (Proc.devRef .tc main_v31)) := by
  show StableHlo.after hostOps3 (W6 m ρ c) (Proc.devRef .tc main_v41) = _
  after_results
  rw [W6_arg1, W6_arg2]
  rfl

theorem entry3_v30 : W7 m ρ c (Proc.devRef .tc main_v30)
    = shapeCast S50000x1 (degFactor (m ((c : Thread nD τ).loc main_arg2))) shapeCasts_S50000_S50000x1 := by
  refine (show W7 m ρ c (Proc.devRef .tc main_v30) = W6 m ρ c (Proc.devRef .tc main_v30) by not_written).trans
    ((W6_of_ne m ρ c main_v30 (by decide)).trans ?_)
  show StableHlo.after hostOps2 (W4 m ρ c) (Proc.devRef .tc main_v30) = _
  after_results
  rw [W4_v13]
  rfl

theorem entry3_v42 : W7 m ρ c (Proc.devRef .tc main_v42)
    = shapeCast S1x2 (m ((c : Thread nD τ).loc main_arg6)) shapeCasts_S2_S1x2 := by
  show StableHlo.after hostOps3 (W6 m ρ c) (Proc.devRef .tc main_v42) = _
  after_results
  rw [W6_arg6]
  rfl

end Cert.KernelIdeal.HostGlue

end
-- ==== Proof.KernelRun.lean ====
/-
  The kernel program's run with its result named. Every weakly fair execution of @main — four host stretches and
  four kernel regions in turn — terminates without a fault, leaves the seven argument arrays as launched, and leaves
  the result array holding what the last segment boundary's contents give it: the fold of the host operations'
  results and the regions' write-backs through @main (`Gen.W8`), read at the result's buffer. This is the frame's
  run with one more buffer read out of its final state.
-/
import proofs.«154340_j13889924235582_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the segments' launch, the last thread state read against the final state — every unscoped buffer at the
    last boundary's contents —, the result's buffer among them, each argument walked back to the launch memory. -/
theorem run : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.ValueRun

end
-- ==== Proof.KernelValue.lean ====
/-
  The kernel program's result as one function of its arguments. The last region's output is the log-softmax (maximum
  and logarithm subtracted together) of the logits it forms from the second layer's aggregate; that aggregate is the
  gather-and-accumulate of the third region's output, the second dense stage of the second region's output, and so
  on back to the arguments. Reading each region's input arrays at its entry through the host stretches between the
  regions puts the four stages together into `GcnSpec.logits`.
-/
import proofs.«154340_j13889924235582_1_alg».proof.Proof.Dense1
import proofs.«154340_j13889924235582_1_alg».proof.Proof.Bias1
import proofs.«154340_j13889924235582_1_alg».proof.Proof.Dense2
import proofs.«154340_j13889924235582_1_alg».proof.Proof.Softmax
import proofs.«154340_j13889924235582_1_alg».proof.Proof.KernelHost
import proofs.«154340_j13889924235582_1_alg».proof.Proof.KernelRun
import Idealize.ShloMosaic.Lib.ValueLayout

noncomputable section

namespace Cert.KernelIdeal.Whole

open Idealize.ShloMosaic Idealize.ShloMosaic.TcCoe Idealize.ShloMosaic.ValueIdx ColumnLayout
open Idealize.SL.Sem
open Cert.KernelIdeal Cert.KernelIdeal.Gen Cert.KernelIdeal.HostGlue GcnSpec

/-- A vector cast to a column and read back as a vector is the vector. -/
theorem colVec_shapeCast {α : Type} {a : ℕ} (x : (⟨1, ![a]⟩ : Shape).Idx → α) (h : (⟨1, ![a]⟩ : Shape).ShapeCasts ⟨2, ![a, 1]⟩) :
    colVec (shapeCast ⟨2, ![a, 1]⟩ x h) = x :=
  funext fun i => (shapeCast_a_a1_apply x h ⟨(i 0).val, (i 0).isLt⟩ (0 : Fin 1)).trans (congrArg x (eq_ix1 i).symm)

/-- A vector cast to a one-row matrix and read back as a vector is the vector. -/
theorem rowVec_shapeCast {α : Type} {b : ℕ} (x : (⟨1, ![b]⟩ : Shape).Idx → α) (h : (⟨1, ![b]⟩ : Shape).ShapeCasts ⟨2, ![1, b]⟩) :
    rowVec (shapeCast ⟨2, ![1, b]⟩ x h) = x :=
  funext fun i => (shapeCast_a_1a_apply x h (0 : Fin 1) ⟨(i 0).val, (i 0).isLt⟩).trans (congrArg x (eq_ix1 i).symm)

/-- The result as a function of the seven arguments: the log-softmax, maximum and logarithm subtracted together, of the
    two-layer logits with the kernel's own gather, scatter and degree factors. -/
def result (x0 : S50000x256.Idx → EReal) (x1 x2 : (⟨S800000, .i32⟩ : BufTy).Contents (Elt Ideal)) (x3 : S256x64.Idx → EReal)
    (x4 : S64.Idx → EReal) (x5 : S64x2.Idx → EReal) (x6 : S2.Idx → EReal) : S50000x2.Idx → EReal :=
  lsmOuter (logits (n := 50000) (agg64 x1 x2) (agg2 x1 x2) (degFactor x1) (degFactor x2) x0 x3 x4 x5 x6)

variable (m : (ℓ : Loc nD τ sig) → Buf (Elt Ideal) ℓ) (ρ : Dev nD → PrngReg) (c : Dev nD)

/-- The first region's output: the first dense stage of the arguments. -/
theorem stage1 : (W2 m ρ c (Proc.devRef .tc main_v16) : S50000x64.Idx → EReal)
    = scaleMatmul (n := 50000) (m ((c : Thread nD τ).loc main_arg0)) (degFactor (m ((c : Thread nD τ).loc main_arg1))) (m ((c : Thread nD τ).loc main_arg3)) := by
  refine (W2_arr m ρ c 3).trans ((Dense1.final (V1 m ρ) c).trans ?_)
  unfold Dense1.G
  show scaleMatmul (W1 m ρ c (Proc.devRef .tc main_arg0)) (colVec (W1 m ρ c (Proc.devRef .tc main_v14))) (W1 m ρ c (Proc.devRef .tc main_arg3)) = _
  rw [entry0_arg0, entry0_v14, entry0_arg3, colVec_shapeCast]

/-- The second region's output: the first layer's activations. -/
theorem stage2 : (W4 m ρ c (Proc.devRef .tc main_v28) : S50000x64.Idx → EReal)
    = relu (scaleBias (agg64 (m ((c : Thread nD τ).loc main_arg1)) (m ((c : Thread nD τ).loc main_arg2)) (W2 m ρ c (Proc.devRef .tc main_v16)))
        (degFactor (m ((c : Thread nD τ).loc main_arg2))) (m ((c : Thread nD τ).loc main_arg4))) := by
  refine (W4_arr m ρ c 3).trans ((Bias1.final (V3 m ρ) c).trans ?_)
  unfold Bias1.G
  show relu (scaleBias (W3 m ρ c (Proc.devRef .tc main_v26)) (colVec (W3 m ρ c (Proc.devRef .tc main_v15))) (rowVec (W3 m ρ c (Proc.devRef .tc main_v27)))) = _
  rw [entry1_v26, entry1_v15, entry1_v27, colVec_shapeCast, rowVec_shapeCast]

/-- The third region's output: the second dense stage of the activations. -/
theorem stage3 : (W6 m ρ c (Proc.devRef .tc main_v31) : S50000x2.Idx → EReal)
    = scaleMatmul (n := 50000) (W4 m ρ c (Proc.devRef .tc main_v28)) (degFactor (m ((c : Thread nD τ).loc main_arg1))) (m ((c : Thread nD τ).loc main_arg5)) := by
  refine (W6_arr m ρ c 3).trans ((Dense2.final (V5 m ρ) c).trans ?_)
  unfold Dense2.G
  show scaleMatmul (W5 m ρ c (Proc.devRef .tc main_v28)) (colVec (W5 m ρ c (Proc.devRef .tc main_v29))) (W5 m ρ c (Proc.devRef .tc main_arg5)) = _
  rw [entry2_v28, entry2_v29, entry2_arg5, colVec_shapeCast]

/-- The result buffer at the last boundary: `result` of the arguments as launched. -/
theorem W8_result : (W8 m ρ c (Proc.devRef .tc main_v43) : S50000x2.Idx → EReal)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W8_arr m ρ c 3).trans ((Softmax.final (V7 m ρ) c).trans ?_)
  unfold Softmax.G Softmax.Y
  show lsmOuter (scaleBias (W7 m ρ c (Proc.devRef .tc main_v41)) (colVec (W7 m ρ c (Proc.devRef .tc main_v30))) (rowVec (W7 m ρ c (Proc.devRef .tc main_v42)))) = _
  rw [entry3_v41, entry3_v30, entry3_v42, colVec_shapeCast, rowVec_shapeCast, stage3, stage2, stage1]
  rfl

end Cert.KernelIdeal.Whole

end
-- ==== Proof.RefValue.lean ====
/-
  The reference program read as the specification's function of its arguments.

  The reference is a chain of host operations. Read one index at a time, its stages are: the node features scaled row by
  row by the out-degree factor and multiplied by the first weight matrix; that product gathered along the edges' sources
  and summed into their destinations; the aggregate scaled by the in-degree factor, shifted by the first bias and cut
  at zero; the same three steps once more with the second weights and bias; and a row-wise log-softmax over the two
  classes which subtracts the row maximum first and the logarithm of the sum of exponentials afterwards. Each theorem
  below identifies one of these stages with the corresponding function of Proof/Spec.lean; `result_eq` composes them.

  The two degree factors (`srcFactor`, `dstFactor`) and the two edge aggregations (`agg64`, `agg2`) are the
  reference's own stage terms: the program computes each factor twice, by the same operations, so the second copy is
  the first by unfolding.
-/
import proofs.«154340_j13889924235582_1_alg».proof.Proof.RefReadP
import proofs.«154340_j13889924235582_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo GcnSpec

/-! ## The reference's own factors and aggregations -/

/-- The out-degree factor of every node: the reciprocal square root of the larger of its out-degree and one. -/
def srcFactor (x1 : (⟨S800000, .i32⟩ : BufTy).Contents (Elt Ideal)) : (⟨S50000, .f32⟩ : BufTy).Contents (Elt Ideal) :=
  val_main_v6 (F := Ideal) x1

/-- The in-degree factor of every node: the reciprocal square root of the larger of its in-degree and one. -/
def dstFactor (x2 : (⟨S800000, .i32⟩ : BufTy).Contents (Elt Ideal)) : (⟨S50000, .f32⟩ : BufTy).Contents (Elt Ideal) :=
  val_main_v13 (F := Ideal) x2

/-- The first layer's edge aggregation: the rows of `h` gathered along the edges' sources, summed into the edges'
    destinations from zero. -/
def agg64 (x1 x2 : (⟨S800000, .i32⟩ : BufTy).Contents (Elt Ideal)) (h : (⟨S50000x64, .f32⟩ : BufTy).Contents (Elt Ideal)) :
    (⟨S50000x64, .f32⟩ : BufTy).Contents (Elt Ideal) :=
  Host.scatterAdd (F := Ideal) (φ := .f32) scatter_S50000x64_S800000x1_S800000x64_1_0_0_1 (val_main_v25 (F := Ideal)) (val_main_v26 (F := Ideal) x2)
    (Host.gather gather_S50000x64_S800000x1_S800000x64_1_0_n_n_0_1_164 h (val_main_v23 (F := Ideal) x1))

/-- The second layer's edge aggregation, over rows of two entries. -/
def agg2 (x1 x2 : (⟨S800000, .i32⟩ : BufTy).Contents (Elt Ideal)) (h : (⟨S50000x2, .f32⟩ : BufTy).Contents (Elt Ideal)) :
    (⟨S50000x2, .f32⟩ : BufTy).Contents (Elt Ideal) :=
  Host.scatterAdd (F := Ideal) (φ := .f32) scatter_S50000x2_S800000x1_S800000x2_1_0_0_1 (val_main_v60 (F := Ideal)) (val_main_v61 (F := Ideal) x2)
    (Host.gather gather_S50000x2_S800000x1_S800000x2_1_0_n_n_0_1_12 h (val_main_v58 (F := Ideal) x1))

variable (x0 : (⟨S50000x256, .f32⟩ : BufTy).Contents (Elt Ideal)) (x1 x2 : (⟨S800000, .i32⟩ : BufTy).Contents (Elt Ideal))
  (x3 : (⟨S256x64, .f32⟩ : BufTy).Contents (Elt Ideal)) (x4 : (⟨S64, .f32⟩ : BufTy).Contents (Elt Ideal))
  (x5 : (⟨S64x2, .f32⟩ : BufTy).Contents (Elt Ideal)) (x6 : (⟨S2, .f32⟩ : BufTy).Contents (Elt Ideal))

/-- The first aggregation stage is `agg64` of the first product. -/
theorem agg64_eq : val_main_v27 (F := Ideal) x0 x1 x2 x3 = agg64 x1 x2 (val_main_v17 (F := Ideal) x0 x1 x3) := rfl

/-- The second aggregation stage is `agg2` of the second product. -/
theorem agg2_eq :
    val_main_v62 (F := Ideal) x0 x1 x2 x3 x4 x5 = agg2 x1 x2 (val_main_v52 (F := Ideal) x0 x1 x2 x3 x4 x5) := rfl

/-- The second layer recomputes the out-degree factor by the same operations. -/
theorem srcFactor_again : val_main_v41 (F := Ideal) x1 = srcFactor x1 := rfl

/-- The second layer recomputes the in-degree factor by the same operations. -/
theorem dstFactor_again : val_main_v48 (F := Ideal) x2 = dstFactor x2 := rfl

/-! ## The first layer -/

/-- The first product: the features scaled row by row by the out-degree factor, times the first weights. -/
theorem dense1 : val_main_v17 (F := Ideal) x0 x1 x3 = scaleMatmul x0 (srcFactor x1) x3 := by
  funext i
  rw [val_main_v17_apply]
  unfold scaleMatmul
  refine Finset.sum_congr rfl fun k _ => ?_
  have e1 : lidx_main_v17 i k = ix2 (row i) k :=
    funext fun a => Fin.ext (by match a with | ⟨0, _⟩ => rfl | ⟨1, _⟩ => rfl)
  have e2 : ridx_main_v17 i k = ix2 k (col i) :=
    funext fun a => Fin.ext (by match a with | ⟨0, _⟩ => rfl | ⟨1, _⟩ => rfl)
  have e3 : idx_main_v14 (idx_main_v15 (ix2 (row i) k)) = ix1 (row i) :=
    funext fun a => Fin.ext (by match a with | ⟨0, _⟩ => rfl)
  rw [e1, e2, val_main_v16_apply, val_main_v15_apply, val_main_v14_apply, Ideal.mulf_def, e3]
  rfl

/-- The first layer's output: the aggregate scaled row by row by the in-degree factor, shifted by the first bias, and
    cut at zero. -/
theorem bias1 :
    val_main_v34 (F := Ideal) x0 x1 x2 x3 x4
      = relu (scaleBias (agg64 x1 x2 (val_main_v17 (F := Ideal) x0 x1 x3)) (dstFactor x2) x4) := by
  funext i
  have e1 : idx_main_v28 (idx_main_v29 i) = ix1 (row i) :=
    funext fun a => Fin.ext (by match a with | ⟨0, _⟩ => rfl)
  have e2 : idx_main_v31 (idx_main_v32 i) = ix1 (col i) :=
    funext fun a => Fin.ext (by match a with | ⟨0, _⟩ => rfl)
  rw [val_main_v34_apply, val_main_v33_apply, val_main_v30_apply, val_main_v29_apply, val_main_v28_apply,
    val_main_v32_apply, val_main_v31_apply, val_main_call0_v0_apply, val_main_call0_cst_apply, Ideal.maximumf_def,
    Ideal.addf_def, Ideal.mulf_def, Ideal.ofBits_def, Ideal.ofBits_zero_f32, e1, e2, agg64_eq]
  rfl

/-! ## The second layer -/

/-- The second product: the first layer's output scaled row by row by the out-degree factor, times the second
    weights. -/
theorem dense2 :
    val_main_v52 (F := Ideal) x0 x1 x2 x3 x4 x5
      = scaleMatmul (val_main_v34 (F := Ideal) x0 x1 x2 x3 x4) (srcFactor x1) x5 := by
  funext i
  rw [val_main_v52_apply]
  unfold scaleMatmul
  refine Finset.sum_congr rfl fun k _ => ?_
  have e1 : lidx_main_v52 i k = ix2 (row i) k :=
    funext fun a => Fin.ext (by match a with | ⟨0, _⟩ => rfl | ⟨1, _⟩ => rfl)
  have e2 : ridx_main_v52 i k = ix2 k (col i) :=
    funext fun a => Fin.ext (by match a with | ⟨0, _⟩ => rfl | ⟨1, _⟩ => rfl)
  have e3 : idx_main_v49 (idx_main_v50 (ix2 (row i) k)) = ix1 (row i) :=
    funext fun a => Fin.ext (by match a with | ⟨0, _⟩ => rfl)
  rw [e1, e2, val_main_v51_apply, val_main_v50_apply, val_main_v49_apply, Ideal.mulf_def, e3, srcFactor_again]

/-- The logits in terms of the second product: its aggregate scaled row by row by the in-degree factor and shifted by
    the second bias. -/
theorem bias2 :
    val_main_v68 (F := Ideal) x0 x1 x2 x3 x4 x5 x6
      = scaleBias (agg2 x1 x2 (val_main_v52 (F := Ideal) x0 x1 x2 x3 x4 x5)) (dstFactor x2) x6 := by
  funext i
  have e1 : idx_main_v63 (idx_main_v64 i) = ix1 (row i) :=
    funext fun a => Fin.ext (by match a with | ⟨0, _⟩ => rfl)
  have e2 : idx_main_v66 (idx_main_v67 i) = ix1 (col i) :=
    funext fun a => Fin.ext (by match a with | ⟨0, _⟩ => rfl)
  rw [val_main_v68_apply, val_main_v65_apply, val_main_v64_apply, val_main_v63_apply, val_main_v67_apply,
    val_main_v66_apply, Ideal.addf_def, Ideal.mulf_def, e1, e2, agg2_eq, dstFactor_again]
  rfl

/-- The reference's logits are the specification's, over the reference's own factors and aggregations. -/
theorem logits_eq :
    val_main_v68 (F := Ideal) x0 x1 x2 x3 x4 x5 x6
      = logits (agg64 x1 x2) (agg2 x1 x2) (srcFactor x1) (dstFactor x2) x0 x3 x4 x5 x6 := by
  rw [bias2, dense2, bias1, dense1]
  rfl

/-! ## The log-softmax -/

/-- A fold of a commutative, associative operation over two values. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The row index `p` with the column `k` put back is `(p, k)`. -/
theorem lift_col (h : S50000x2.Reduces [1] S50000) (p : Fin 50000) (k : Fin (S50000x2.size 1)) :
    h.lift (ix1 p) k = ix2 p (⟨k.val, k.isLt⟩ : Fin 2) := by
  funext c
  apply Fin.ext
  match c with
  | ⟨0, _⟩ => rfl
  | ⟨1, _⟩ => rfl

/-- The bit pattern of negative infinity is the least extended real. -/
theorem ofBits_neg_inf_f32 : Ideal.ofBits .f32 0xFF800000#32 = ⊥ := by simp [Ideal.ofBits, Ideal.ieee]

/-- A maximum-reduce along the rows of a two-column array, from an initial value of negative infinity, is the larger of
    the row's two entries. -/
theorem reduce_max_row (y : S50000x2.Idx → EReal) (init : S_.Idx → EReal) (hinit : ∀ j, init j = ⊥) (p : Fin 50000) :
    Host.reduce (FloatOps.maximumf (F := Ideal) (φ := .f32)) y init reducesTo_S50000x2_S50000_d1 h_S_ (ix1 p)
      = rowMax y p := by
  have h : S50000x2.Reduces [1] S50000 := by decide
  rw [Host.reduce_eq_fold_single (FloatOps.maximumf (F := Ideal) (φ := .f32)) y init reducesTo_S50000x2_S50000_d1 h h_S_,
    hinit]
  have hf : (y ∘ h.lift (ix1 p)) = fun k : Fin 2 => y (ix2 p k) := funext fun k => congrArg y (lift_col h p k)
  have e := fold_univ_fin2 (FloatOps.maximumf (F := Ideal) (φ := .f32)) (⊥ : EReal) (fun k : Fin 2 => y (ix2 p k))
  refine (congrArg (fun g => Finset.fold (FloatOps.maximumf (F := Ideal) (φ := .f32)) (⊥ : EReal) g
    (Finset.univ : Finset (Fin 2))) hf).trans (e.trans ?_)
  show max (y (ix2 p 0)) (max (y (ix2 p 1)) ⊥) = max (y (ix2 p 0)) (y (ix2 p 1))
  rw [max_bot_right]

/-- The row-maximum stage of the log-softmax at row `p`. -/
theorem rowMax_stage (p : Fin 50000) :
    val_main_call1_v2 (F := Ideal) x0 x1 x2 x3 x4 x5 x6 (ix1 p)
      = rowMax (val_main_v68 (F := Ideal) x0 x1 x2 x3 x4 x5 x6) p := by
  rw [val_main_call1_v2_apply, val_main_call1_v1_apply, val_main_call1_cst_0_apply, Ideal.maximumf_def, Ideal.ofBits_def,
    ofBits_neg_inf_f32, max_bot_left]
  unfold val_main_call1_v0
  exact reduce_max_row _ _ (fun j => by rw [val_main_call1_cst_apply, Ideal.ofBits_def, ofBits_neg_inf_f32]) p

/-- The shifted-logit stage of the log-softmax at `(p, j)`: the logit less the row maximum. -/
theorem shifted_stage (p : Fin 50000) (j : Fin 2) :
    val_main_call1_v5 (F := Ideal) x0 x1 x2 x3 x4 x5 x6 (ix2 p j)
      = val_main_v68 (F := Ideal) x0 x1 x2 x3 x4 x5 x6 (ix2 p j)
        - rowMax (val_main_v68 (F := Ideal) x0 x1 x2 x3 x4 x5 x6) p := by
  have e : idx_main_call1_v3 (idx_main_call1_v4 (ix2 p j)) = ix1 p :=
    funext fun a => Fin.ext (by match a with | ⟨0, _⟩ => rfl)
  rw [val_main_call1_v5_apply, val_main_call1_v4_apply, val_main_call1_v3_apply, Ideal.subf_def, e, rowMax_stage]

/-- The reference's log-softmax stages are the specification's second grouping applied to the logits stage. -/
theorem softmax :
    val_main_v69 (F := Ideal) x0 x1 x2 x3 x4 x5 x6 = lsmInner (val_main_v68 (F := Ideal) x0 x1 x2 x3 x4 x5 x6) := by
  funext i
  obtain ⟨p, j, rfl⟩ : ∃ (p : Fin 50000) (j : Fin 2), i = ix2 p j := ⟨i 0, i 1, eq_ix2 i⟩
  have e8 : idx_main_call1_v8 (idx_main_call1_v10 (ix2 p j)) = ix1 p :=
    funext fun a => Fin.ext (by match a with | ⟨0, _⟩ => rfl)
  have hsum : ∑ k : Fin 2, val_main_call1_v6 (F := Ideal) x0 x1 x2 x3 x4 x5 x6 (idx_main_call1_v7 (ix1 p) k)
      = ∑ k : Fin 2, Ideal.exp (val_main_v68 (F := Ideal) x0 x1 x2 x3 x4 x5 x6 (ix2 p k)
          - rowMax (val_main_v68 (F := Ideal) x0 x1 x2 x3 x4 x5 x6) p) :=
    Finset.sum_congr rfl fun k _ => by
      have e7 : idx_main_call1_v7 (ix1 p) k = ix2 p k :=
        funext fun a => Fin.ext (by match a with | ⟨0, _⟩ => rfl | ⟨1, _⟩ => rfl)
      rw [e7, val_main_call1_v6_apply, Ideal.hostUnary_exp_def, shifted_stage]
  rw [val_main_v69_apply, val_main_call1_v10_apply, val_main_call1_v9_apply, val_main_call1_v8_apply, e8,
    val_main_call1_v7_apply, val_main_call1_cst_1_apply, Ideal.subf_def, Ideal.hostUnary_log_def, Ideal.ofBits_def,
    Ideal.ofBits_zero_f32, zero_add, hsum, shifted_stage]
  rfl

/-! ## The result -/

/-- The reference's result is the specification's second grouping of the log-softmax applied to the specification's
    logits, over the reference's own degree factors and edge aggregations. -/
theorem result_eq :
    val_main_v69 (F := Ideal) x0 x1 x2 x3 x4 x5 x6
      = lsmInner (logits (agg64 x1 x2) (agg2 x1 x2) (srcFactor x1) (dstFactor x2) x0 x3 x4 x5 x6) := by
  rw [softmax, logits_eq]

end Cert.ReferenceIdeal.RefValue

end
-- ==== Proof.Real.lean ====
/-
  Realness of every stage. The two groupings of the log-softmax agree only where every logit is a real number, so
  the property "every entry is a real number" is carried through each stage of the graph convolution: a product, a
  finite sum, a maximum of reals is a real; a gather only selects entries; the accumulating scatter adds a finite
  sum of update entries to an entry; the degree factor is the reciprocal square root of a positive real. The last
  theorem is the law that joins the two groupings: with the row maximum a real number,
  `y - (m + L) = (y - m) - L` for every extended real `L`.
-/
import proofs.«154340_j13889924235582_1_alg».proof.Proof.Spec
import Idealize.ShloMosaic.PureOps.Ideal
import Idealize.ShloMosaic.PureOps.Ideal.Laws

noncomputable section

namespace GcnSpec

open Idealize.ShloMosaic Idealize.ShloMosaic.ValueIdx

/-- Every entry is a real number (neither infinity). -/
def AllReal {ι : Type} (f : ι → EReal) : Prop := ∀ i, ∃ r : ℝ, f i = (r : EReal)

/-! ### The reals are closed under the extended reals' sum, product, maximum and finite sums -/

private theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb
  exact ⟨r + s, (EReal.coe_add r s).symm⟩

private theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb
  exact ⟨r * s, (EReal.coe_mul r s).symm⟩

private theorem coe_max' (r s : ℝ) : max (r : EReal) (s : EReal) = ((max r s : ℝ) : EReal) :=
  (EReal.coe_strictMono.monotone.map_max (a := r) (b := s)).symm

private theorem real_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb
  exact ⟨max r s, coe_max' r s⟩

/-- A finite sum of reals is a real. -/
private theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ### The stages -/

theorem allReal_scaleMatmul {n k c : Nat} {x : (Mat n k).Idx → EReal} {r : (Vct n).Idx → EReal}
    {w : (Mat k c).Idx → EReal} (hx : AllReal x) (hr : AllReal r) (hw : AllReal w) :
    AllReal (scaleMatmul x r w) := fun i =>
  real_sum Finset.univ _ fun q _ => real_mul (real_mul (hx _) (hr _)) (hw _)

theorem allReal_scaleBias {n c : Nat} {a : (Mat n c).Idx → EReal} {r : (Vct n).Idx → EReal}
    {b : (Vct c).Idx → EReal} (ha : AllReal a) (hr : AllReal r) (hb : AllReal b) :
    AllReal (scaleBias a r b) := fun i =>
  real_add (real_mul (ha i) (hr _)) (hb _)

theorem allReal_relu {n c : Nat} {y : (Mat n c).Idx → EReal} (hy : AllReal y) : AllReal (relu y) := fun i =>
  real_max (hy i) ⟨0, EReal.coe_zero.symm⟩

/-- A gather only selects entries of its operand. -/
theorem allReal_gather {s si t : Shape} {w : Nat} (d : GatherDims s si t) (x : s.Idx → EReal) (idx : IVec si w)
    (hx : AllReal x) : AllReal (Host.gather d x idx) := fun j => hx (d.operandIdx j idx)

/-- The accumulating scatter: an entry plus a finite sum of update entries. -/
theorem allReal_scatterAdd {s si u : Shape} {w : Nat} (d : ScatterDims s si u) (x : FVec Ideal s .f32)
    (idx : IVec si w) (upd : FVec Ideal u .f32) (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-- The reciprocal square root of a positive real is a real. -/
private theorem real_rsqrt {r : ℝ} (hr : 0 < r) : ∃ t : ℝ, Ideal.rsqrt (r : EReal) = (t : EReal) := by
  refine ⟨(Real.sqrt r)⁻¹, ?_⟩
  rw [Ideal.rsqrt_coe, if_neg (not_lt.mpr hr.le), if_neg hr.ne']

/-- The degree factor `rsqrt (max (degree, o'))` with `o'` positive: the degree is a real, its maximum with a positive
    real is a positive real, and the reciprocal square root of a positive real is a real. -/
theorem allReal_degFactor {s si u : Shape} {w : Nat} (d : ScatterDims s si u) (z : FVec Ideal s .f32)
    (idx : IVec si w) (o : FVec Ideal u .f32) (o' : FVec Ideal s .f32) (hz : AllReal z) (ho : AllReal o)
    (ho' : ∀ i, ∃ r : ℝ, 0 < r ∧ o' i = (r : EReal)) :
    AllReal (Host.rsqrt (F := Ideal) (maximumf (Host.scatterAdd (F := Ideal) d z idx o) o')) := by
  intro i
  obtain ⟨a, ha⟩ := allReal_scatterAdd d z idx o hz ho i
  obtain ⟨b, hb, hb'⟩ := ho' i
  show ∃ t : ℝ, Ideal.rsqrt (max (Host.scatterAdd (F := Ideal) d z idx o i) (o' i)) = (t : EReal)
  rw [ha, hb', coe_max']
  exact real_rsqrt (lt_max_of_lt_right hb)

/-- The f32 pattern of `1.0`. -/
theorem ofBits_one_f32 : Ideal.ofBits .f32 0x3F800000#32 = ((1 : ℝ) : EReal) := by
  simp [Ideal.ofBits, Ideal.ieee, -EReal.coe_mul]; norm_num

/-! ### The two groupings of the log-softmax -/

/-- With `m` a real number, `a - (m + L) = (a - m) - L` for every extended real `a`, `L`. -/
private theorem sub_add_eq_sub_sub_of_real (a L : EReal) (m : ℝ) :
    a - ((m : EReal) + L) = (a - (m : EReal)) - L := by
  rw [sub_eq_add_neg, sub_eq_add_neg, sub_eq_add_neg,
    EReal.neg_add (Or.inl (EReal.coe_ne_bot m)) (Or.inl (EReal.coe_ne_top m)), sub_eq_add_neg, add_assoc]

theorem lsmOuter_eq_lsmInner {n : Nat} (y : (Mat n 2).Idx → EReal) (hy : AllReal y) : lsmOuter y = lsmInner y := by
  funext i
  obtain ⟨m, hm⟩ : ∃ m : ℝ, rowMax y (row i) = (m : EReal) := real_max (hy _) (hy _)
  unfold lsmOuter lsmInner
  rw [hm]
  exact sub_add_eq_sub_sub_of_real _ _ m

end GcnSpec

end
-- ==== Proof.PreReal.lean ====
/-
  The printed precondition gives realness of the float arguments. The predicate is the conjunction of five
  `jnp.all (|x| < +∞)`, one per float argument: it is all ones, so each conjunct is one, so each comparison is one at
  every index, and an extended real whose absolute value is below `+∞` is neither infinity.
-/
import proofs.«154340_j13889924235582_1_alg».proof.Pre_finite_inputs
import proofs.«154340_j13889924235582_1_alg».proof.Proof.Real
import Idealize.ShloMosaic.Lib.ReduceAll

noncomputable section

namespace GcnSpec

open Idealize.ShloMosaic Idealize.ShloMosaic.ValueIdx
open Cert.Pre_finite_inputs

/-- The shape of rank zero has one index. -/
private instance subsingleton_S_ : Subsingleton S_.Idx := ⟨fun a b => funext fun d => d.elim0⟩

/-- The f32 pattern `0x7F800000` is `+∞`. -/
private theorem ofBits_inf_f32 : Ideal.ofBits .f32 0x7F800000#32 = ⊤ := by simp [Ideal.ofBits, Ideal.ieee]

/-- An extended real whose absolute value is below `+∞` is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- The ordered "less than" comparison answers one only where the order's `<` holds. -/
private theorem lt_of_cmp_olt {a b : EReal} (h : Ideal.cmp .olt a b = 1#1) : a < b := by
  unfold Ideal.cmp at h
  by_contra hn
  simp [hn] at h

/-- One `jnp.all (|x| < +∞)` that is one: every entry of `x` is a real number. -/
private theorem allReal_of_all {s : Shape} {axes : List (Fin s.rank)} (x : FVec Ideal s .f32)
    (hb : S_.BroadcastsInDim s (![] : Fin 0 → Fin s.rank)) (hr : s.ReducesTo axes S_) (hS : 0 < S_.numel)
    (e : Host.reduce IntOp.andi
          (cmpf .olt (Host.absf x) (broadcastInDim s ![] hb (constant (F := Ideal) S_ .f32 0x7F800000#32)))
          (constantI S_ 1 1#1) hr hS ix0 = 1#1) : AllReal x := by
  intro i
  have h1 : Ideal.cmp .olt (max (x i) (-(x i))) (Ideal.ofBits .f32 0x7F800000#32) = 1#1 :=
    Host.reduce_andi_all _ _ hr hS ix0 e i
  rw [ofBits_inf_f32] at h1
  exact real_of_abs_lt_top (x i) (lt_of_cmp_olt h1)

theorem allReal_of_pre [Cert.Pre_finite_inputs.Facts]
    (x0 : (⟨Cert.Pre_finite_inputs.S50000x256, .f32⟩ : BufTy).Contents (Elt Ideal))
    (x1 x2 : (⟨Cert.Pre_finite_inputs.S800000, .i32⟩ : BufTy).Contents (Elt Ideal))
    (x3 : (⟨Cert.Pre_finite_inputs.S256x64, .f32⟩ : BufTy).Contents (Elt Ideal))
    (x4 : (⟨Cert.Pre_finite_inputs.S64, .f32⟩ : BufTy).Contents (Elt Ideal))
    (x5 : (⟨Cert.Pre_finite_inputs.S64x2, .f32⟩ : BufTy).Contents (Elt Ideal))
    (x6 : (⟨Cert.Pre_finite_inputs.S2, .f32⟩ : BufTy).Contents (Elt Ideal))
    (h : Cert.Pre_finite_inputs.fn (F := Ideal) x0 x1 x2 x3 x4 x5 x6 = fun _ => 1#1) :
    AllReal x0 ∧ AllReal x3 ∧ AllReal x4 ∧ AllReal x5 ∧ AllReal x6 := by
  have h0 := congrFun h ix0
  dsimp only [Cert.Pre_finite_inputs.fn, Cert.Pre_finite_inputs.fn_part1, andi] at h0
  obtain ⟨h0123, h6⟩ := IntOp.andi_eq_one.1 h0
  obtain ⟨h012, h5⟩ := IntOp.andi_eq_one.1 h0123
  obtain ⟨h01, h4⟩ := IntOp.andi_eq_one.1 h012
  obtain ⟨h00, h3⟩ := IntOp.andi_eq_one.1 h01
  exact ⟨allReal_of_all x0 _ _ _ h00, allReal_of_all x3 _ _ _ h3, allReal_of_all x4 _ _ _ h4,
    allReal_of_all x5 _ _ _ h5, allReal_of_all x6 _ _ _ h6⟩

end GcnSpec

end
-- ==== Proof.Algebraic.lean ====
/-
  The two idealized programs end with equal results. The kernel's result is the log-softmax of the two-layer logits
  with the row maximum and the logarithm added first and subtracted together; the reference's subtracts the maximum
  first and the logarithm afterwards. The two programs' degree factors, gathers and accumulating scatters are the
  same terms, so the logits are one function of the arguments; under the precondition every float argument is real,
  realness passes through every stage — a product, a finite sum, a gather, an accumulating scatter, the reciprocal
  square root of a degree raised to at least one — so every logit is a real number, and there the two groupings agree.
-/
import proofs.«154340_j13889924235582_1_alg».proof.Defs
import proofs.«154340_j13889924235582_1_alg».proof.Proof.KernelValue
import proofs.«154340_j13889924235582_1_alg».proof.Proof.RefValue
import proofs.«154340_j13889924235582_1_alg».proof.Proof.Real
import proofs.«154340_j13889924235582_1_alg».proof.Proof.PreReal
import proofs.«154340_j13889924235582_1_alg».proof.Proof.Gen.Pre_finite_inputs

noncomputable section

namespace Cert.Proof.Gcn

open Idealize.ShloMosaic Idealize.ShloMosaic.TcCoe Idealize.SL.Sem GcnSpec

/-! ## The two programs' factors and aggregations are the same functions -/

theorem src_eq (x1 : (⟨Cert.KernelIdeal.S800000, .i32⟩ : BufTy).Contents (Elt Ideal)) :
    Cert.ReferenceIdeal.RefValue.srcFactor x1 = Cert.KernelIdeal.HostGlue.degFactor x1 := rfl
theorem dst_eq (x2 : (⟨Cert.KernelIdeal.S800000, .i32⟩ : BufTy).Contents (Elt Ideal)) :
    Cert.ReferenceIdeal.RefValue.dstFactor x2 = Cert.KernelIdeal.HostGlue.degFactor x2 := rfl
theorem agg64_eq (x1 x2 : (⟨Cert.KernelIdeal.S800000, .i32⟩ : BufTy).Contents (Elt Ideal)) :
    Cert.ReferenceIdeal.RefValue.agg64 x1 x2 = Cert.KernelIdeal.HostGlue.agg64 x1 x2 := rfl
theorem agg2_eq (x1 x2 : (⟨Cert.KernelIdeal.S800000, .i32⟩ : BufTy).Contents (Elt Ideal)) :
    Cert.ReferenceIdeal.RefValue.agg2 x1 x2 = Cert.KernelIdeal.HostGlue.agg2 x1 x2 := rfl

/-! ## Every logit is a real number -/

open Cert.KernelIdeal Cert.KernelIdeal.HostGlue in
/-- A degree factor is real: the degree is zero plus a sum of ones, the floor is one. -/
theorem allReal_degFactor' (x : (⟨S800000, .i32⟩ : BufTy).Contents (Elt Ideal)) : AllReal (degFactor x) :=
  allReal_degFactor _ _ _ _ _
    (fun _ => ⟨0, by show Ideal.ofBits .f32 0x00000000#32 = _; rw [Ideal.ofBits_zero_f32]; rfl⟩)
    (fun _ => ⟨1, by show Ideal.ofBits .f32 0x3F800000#32 = _; exact ofBits_one_f32⟩)
    (fun _ => ⟨1, one_pos, by show Ideal.ofBits .f32 0x3F800000#32 = _; exact ofBits_one_f32⟩)

open Cert.KernelIdeal Cert.KernelIdeal.HostGlue in
/-- An edge aggregation of real rows is real: a gather selects entries, the scatter adds finitely many to zero. -/
theorem allReal_agg64 (x1 x2 : (⟨S800000, .i32⟩ : BufTy).Contents (Elt Ideal)) (h : S50000x64.Idx → EReal) (hh : AllReal h) :
    AllReal (agg64 x1 x2 h) :=
  allReal_scatterAdd _ _ _ _
    (fun _ => ⟨0, by show Ideal.ofBits .f32 0x00000000#32 = _; rw [Ideal.ofBits_zero_f32]; rfl⟩)
    (allReal_gather _ _ _ hh)

open Cert.KernelIdeal Cert.KernelIdeal.HostGlue in
theorem allReal_agg2 (x1 x2 : (⟨S800000, .i32⟩ : BufTy).Contents (Elt Ideal)) (h : S50000x2.Idx → EReal) (hh : AllReal h) :
    AllReal (agg2 x1 x2 h) :=
  allReal_scatterAdd _ _ _ _
    (fun _ => ⟨0, by show Ideal.ofBits .f32 0x00000000#32 = _; rw [Ideal.ofBits_zero_f32]; rfl⟩)
    (allReal_gather _ _ _ hh)

open Cert.KernelIdeal Cert.KernelIdeal.HostGlue in
/-- With real float arguments the second layer's logits are real, whatever the edge lists hold. -/
theorem allReal_logits (x0 : S50000x256.Idx → EReal) (x1 x2 : (⟨S800000, .i32⟩ : BufTy).Contents (Elt Ideal))
    (x3 : S256x64.Idx → EReal) (x4 : S64.Idx → EReal) (x5 : S64x2.Idx → EReal) (x6 : S2.Idx → EReal)
    (h0 : AllReal x0) (h3 : AllReal x3) (h4 : AllReal x4) (h5 : AllReal x5) (h6 : AllReal x6) :
    AllReal (logits (n := 50000) (agg64 x1 x2) (agg2 x1 x2) (degFactor x1) (degFactor x2) x0 x3 x4 x5 x6) :=
  allReal_scaleBias
    (allReal_agg2 x1 x2 _ (allReal_scaleMatmul
      (allReal_relu (allReal_scaleBias (allReal_agg64 x1 x2 _ (allReal_scaleMatmul h0 (allReal_degFactor' x1) h3))
        (allReal_degFactor' x2) h4))
      (allReal_degFactor' x1) h5))
    (allReal_degFactor' x2) h6

/-! ## The claim -/

/-- From memories agreeing on the arguments both programs run and end with the same result array: the kernel's
    `Whole.result` of the arguments. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  haveI : Cert.Pre_finite_inputs.Facts := Cert.Pre_finite_inputs.Gen.facts
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Whole.W8_result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨r0, r3, r4, r5, r6⟩ := allReal_of_pre _ _ _ _ _ _ _ (hpre c)
    obtain ⟨e0, e1, e2, e3, e4, e5, e6⟩ := hagree c
    rw [Cert.ReferenceIdeal.ReadP.val_main_v69_eq, Cert.ReferenceIdeal.RefValue.result_eq, e0, e1, e2, e3, e4, e5, e6,
      src_eq, dst_eq, agg64_eq, agg2_eq]
    exact (lsmOuter_eq_lsmInner _ (allReal_logits _ _ _ _ _ _ _ r0 r3 r4 r5 r6)).symm

end Cert.Proof.Gcn

end
-- ==== Proof.lean ====
/-
  The certificate of a two-layer graph convolution kernel against its reference.

  The kernel runs four regions — degree-scaled features times weights; aggregate scaled, shifted and cut at zero; the
  same dense stage on the hidden features; aggregate scaled, shifted and log-softmaxed — with the gather along edge
  sources and the accumulating scatter into edge destinations done on the host between them. The reference does the
  same steps as whole-array host operations. At the extended reals the changes of float format are the identity and
  the two matrix products are the same sums, so the programs differ only in how the log-softmax groups its two
  subtractions, and those groupings agree wherever the row maximum is a real number — which the precondition (every
  float input finite) gives, carried through every stage (Proof/Algebraic.lean).

  The three frames: the kernel's two are the generated frame certificates; the reference has no kernel, and its frame
  is its run with the result dropped. The ideal pass rewrote nothing, so the idealization claim is trivial.
-/
import proofs.«154340_j13889924235582_1_alg».proof.Defs
import proofs.«154340_j13889924235582_1_alg».proof.Proof.Gen.Kernel
import proofs.«154340_j13889924235582_1_alg».proof.Proof.Gen.Kernel.Frame
import proofs.«154340_j13889924235582_1_alg».proof.Proof.Gen.KernelIdeal
import proofs.«154340_j13889924235582_1_alg».proof.Proof.Gen.KernelIdeal.Frame
import proofs.«154340_j13889924235582_1_alg».proof.Proof.Gen.ReferenceIdeal
import proofs.«154340_j13889924235582_1_alg».proof.Proof.Gen.Pre_finite_inputs
import proofs.«154340_j13889924235582_1_alg».proof.Proof.RefRunP
import proofs.«154340_j13889924235582_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  Cert.Proof.Gcn.algebraic⟩

end Cert.Proof

end
